-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4096x1024 .f32) (main_arg1 : FVec F S1024x1024 .f32) (main_arg2 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩
abbrev S1x1 : Shape := ⟨2, ![1, 1]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 31
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S1x1, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_call0_v0 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_cst_4 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c512_i32 : BitVec 32 := 512#32
  let v6 : BitVec 32 := Scalar.muli c0_i32 c512_i32
  v6
def k0_off1 (c0_i32 : BitVec 32) : Fin 2 → Nat :=
  let c512_i32 : BitVec 32 := 512#32
  let v6 : BitVec 32 := Scalar.muli c0_i32 c512_i32
  let v7 : BitVec 32 := v6
  let v8 : Index := Scalar.indexCast v7
  let c0_5 : Index := 0#32
  ![v8.toNat, 0]
def k0_mult2 : BitVec 32 :=
  let c1_i32 : BitVec 32 := 1#32
  let c512_i32_13 : BitVec 32 := 512#32
  let v37 : BitVec 32 := Scalar.muli c1_i32 c512_i32_13
  v37
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  shapeCasts_S_S1x1 : S_.ShapeCasts S1x1
  shapeCasts_S8x4096x1024_S32768x1024 : S8x4096x1024.ShapeCasts S32768x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  broadcasts_S1x1_S512x1 : S1x1.Broadcasts S512x1
  broadcasts_S1x1024_S512x1024 : S1x1024.Broadcasts S512x1024
  shapeCasts_S32768x1024_S8x4096x1024 : S32768x1024.ShapeCasts S8x4096x1024
  dot_S512x1024_S1024x1024_S512x1024_1_0_0_1_n_n_wf : DotDims.WF S512x1024 S1024x1024 S512x1024 [1] [0] [0] [1] [] []
  hrank0 : 0 < grid0.rank
  k0_mult1_dvd : 512 ∣ k0_mult1.toNat
  k0_off1_inb : ∀ (r : Fin 2), ∀ a, (k0_off1 (BitVec.ofNat 32 r.val)) a + S512x1024.size a ≤ S1024x1024.size a
  k0_mult2_dvd : 512 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .f32 = 32 ∨ (Rect.block (s := S32768x1024) S1024x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S1024x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S1024x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_c_2 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_cst_5 : Ref sig .tc := ⟨.hbm, 34, rfl⟩
abbrev main_call3_v0 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_7 : Ref sig .tc := ⟨.hbm, 42, rfl⟩
abbrev main_c_8 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S_S8x4096x1024 : S_.BroadcastsInDim S8x4096x1024 (![] : Fin 0 → Fin S8x4096x1024.rank)
  reducesTo_S1024x1024_S_d0_1 : S1024x1024.ReducesTo [0, 1] S_
  bcast_S_S1024x1024 : S_.BroadcastsInDim S1024x1024 (![] : Fin 0 → Fin S1024x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.RefRun.lean ====
/-
  The reference's run, read back. The reference quantises each row of the activations to the int8 grid by
  the row's largest magnitude (clamped below), divides the grid value by the same scale again, does the same
  for the whole weight by its mean magnitude on the ternary grid, and then contracts the two dequantised
  operands over the input features and adds the bias. Its 55 host operations are listed in program order (the
  operations of the outlined clip / round functions at their call sites, on the calls' own buffers); every
  weakly fair execution ends with the result buffer at the operations' composed value of the three arguments,
  which is stated through the named stages below: the row's largest magnitude, the clamped denominator, the
  scale, the grid value, the dequantised operand, and the same five for the weight.
-/
import proofs.«164057_j25314537243014_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages of the reference, as functions of the argument arrays -/

/-- The largest magnitude of each row of the activations, from −∞. -/
def rowMax (x : (⟨S8x4096x1024, .f32⟩ : BufTy).Contents (Elt F)) : (⟨S8x4096, .f32⟩ : BufTy).Contents (Elt F) :=
  Host.reduce FloatOps.maximumf (Host.absf x) (constant S_ .f32 0xFF800000#32) reducesTo_S8x4096x1024_S8x4096_d2 h_S_

/-- That magnitude clamped below by the small positive constant, as a column. -/
def rowDen (x : (⟨S8x4096x1024, .f32⟩ : BufTy).Contents (Elt F)) : (⟨S8x4096x1, .f32⟩ : BufTy).Contents (Elt F) :=
  maximumf (broadcastInDim S8x4096x1 ![] bcast_S_S8x4096x1 (id (constant S_ .f32 0x3727C5AC#32)))
    (broadcastInDim S8x4096x1 ![0, 1] bcast_S8x4096_S8x4096x1_0_1 (rowMax x))

/-- The row's scale: 127 over the clamped magnitude. -/
def rowScale (x : (⟨S8x4096x1024, .f32⟩ : BufTy).Contents (Elt F)) : (⟨S8x4096x1, .f32⟩ : BufTy).Contents (Elt F) :=
  Host.divf (broadcastInDim S8x4096x1 ![] bcast_S_S8x4096x1 (constant S_ .f32 0x42FE0000#32)) (rowDen x)

/-- The activations on the int8 grid: scaled, rounded to even, clamped to [−128, 127]. -/
def actGrid (x : (⟨S8x4096x1024, .f32⟩ : BufTy).Contents (Elt F)) : (⟨S8x4096x1024, .f32⟩ : BufTy).Contents (Elt F) :=
  minimumf (broadcastInDim S8x4096x1024 ![] bcast_S_S8x4096x1024 (sitofp .f32 (constantI S_ 32 127#32)))
    (maximumf (broadcastInDim S8x4096x1024 ![] bcast_S_S8x4096x1024 (sitofp .f32 (constantI S_ 32 4294967168#32)))
      (Host.roundeven (mulf x (broadcastInDim S8x4096x1024 ![0, 1, 2] bcast_S8x4096x1_S8x4096x1024_0_1_2 (rowScale x)))))

/-- The dequantised activations, in the straight-through form x + (grid / scale − x). -/
def actDeq (x : (⟨S8x4096x1024, .f32⟩ : BufTy).Contents (Elt F)) : (⟨S8x4096x1024, .f32⟩ : BufTy).Contents (Elt F) :=
  addf x (subf (Host.divf (actGrid x) (broadcastInDim S8x4096x1024 ![0, 1, 2] bcast_S8x4096x1_S8x4096x1024_0_1_2 (rowScale x))) x)

/-- The mean magnitude of the weight: the sum of all magnitudes over their number. -/
def wMean (w : (⟨S1024x1024, .f32⟩ : BufTy).Contents (Elt F)) : (⟨S_, .f32⟩ : BufTy).Contents (Elt F) :=
  Host.divf (Host.reduceAdd (Host.absf w) (constant S_ .f32 0x00000000#32) reducesTo_S1024x1024_S_d0_1 h_S_) (constant S_ .f32 0x49800000#32)

/-- That mean clamped below by the small positive constant. -/
def wDen (w : (⟨S1024x1024, .f32⟩ : BufTy).Contents (Elt F)) : (⟨S_, .f32⟩ : BufTy).Contents (Elt F) :=
  maximumf (id (constant S_ .f32 0x3727C5AC#32)) (wMean w)

/-- The weight's scale: one over the clamped mean. -/
def wScale (w : (⟨S1024x1024, .f32⟩ : BufTy).Contents (Elt F)) : (⟨S_, .f32⟩ : BufTy).Contents (Elt F) :=
  Host.divf (constant S_ .f32 0x3F800000#32) (wDen w)

/-- The weight on the ternary grid: scaled, rounded to even, clamped to [−1, 1]. -/
def wGrid (w : (⟨S1024x1024, .f32⟩ : BufTy).Contents (Elt F)) : (⟨S1024x1024, .f32⟩ : BufTy).Contents (Elt F) :=
  minimumf (broadcastInDim S1024x1024 ![] bcast_S_S1024x1024 (sitofp .f32 (constantI S_ 32 1#32)))
    (maximumf (broadcastInDim S1024x1024 ![] bcast_S_S1024x1024 (sitofp .f32 (constantI S_ 32 4294967295#32)))
      (Host.roundeven (mulf w (broadcastInDim S1024x1024 ![] bcast_S_S1024x1024 (wScale w)))))

/-- The dequantised weight, in the straight-through form w + (grid / scale − w). -/
def wDeq (w : (⟨S1024x1024, .f32⟩ : BufTy).Contents (Elt F)) : (⟨S1024x1024, .f32⟩ : BufTy).Contents (Elt F) :=
  addf w (subf (Host.divf (wGrid w) (broadcastInDim S1024x1024 ![] bcast_S_S1024x1024 (wScale w))) w)

/-- The reference's result: the two dequantised operands contracted over the input features, plus the bias. -/
def refOut (x : (⟨S8x4096x1024, .f32⟩ : BufTy).Contents (Elt F)) (w : (⟨S1024x1024, .f32⟩ : BufTy).Contents (Elt F)) (b : (⟨S1024, .f32⟩ : BufTy).Contents (Elt F)) : (⟨S8x4096x1024, .f32⟩ : BufTy).Contents (Elt F) :=
  addf (Host.dotGeneral dot_S8x4096x1024_S1024x1024_S8x4096x1024_2_1_01_0_n_n none (actDeq x) (wDeq w))
    (broadcastInDim S8x4096x1024 ![0, 1, 2] bcast_S1x1x1024_S8x4096x1024_0_1_2 (broadcastInDim S1x1x1024 ![2] bcast_S1024_S1x1x1024_2 b))

/-! ## The run -/

/-- @main's 55 operations, in program order. -/
abbrev ops : List (HloOp τ sig (Elt F)) :=
  [ unary main_arg0 main_v0 (Host.absf : (⟨S8x4096x1024, .f32⟩ : BufTy).Contents (Elt F) → (⟨S8x4096x1024, .f32⟩ : BufTy).Contents (Elt F)),
    nullary main_cst (constant S_ .f32 0xFF800000#32),
    binary main_v0 main_cst main_v1 ((fun x v => Host.reduce FloatOps.maximumf x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v1 main_v2 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_0 (constant S_ .f32 0x3727C5AC#32),
    unary main_cst_0 main_call0_v0 ((id) : (⟨S_, .f32⟩ : BufTy).Contents (Elt F) → (⟨S_, .f32⟩ : BufTy).Contents (Elt F)),
    unary main_call0_v0 main_call0_v1 (((broadcastInDim S8x4096x1 ![] bcast_S_S8x4096x1)) : (⟨S_, .f32⟩ : BufTy).Contents (Elt F) → (⟨S8x4096x1, .f32⟩ : BufTy).Contents (Elt F)),
    binary main_call0_v1 main_v2 main_v3 ((maximumf) : (⟨S8x4096x1, .f32⟩ : BufTy).Contents (Elt F) → (⟨S8x4096x1, .f32⟩ : BufTy).Contents (Elt F) → (⟨S8x4096x1, .f32⟩ : BufTy).Contents (Elt F)),
    nullary main_cst_1 (constant S_ .f32 0x42FE0000#32),
    unary main_cst_1 main_v4 (broadcastInDim S8x4096x1 ![] bcast_S_S8x4096x1 : (⟨S_, .f32⟩ : BufTy).Contents (Elt F) → (⟨S8x4096x1, .f32⟩ : BufTy).Contents (Elt F)),
    binary main_v4 main_v3 main_v5 (Host.divf : (⟨S8x4096x1, .f32⟩ : BufTy).Contents (Elt F) → (⟨S8x4096x1, .f32⟩ : BufTy).Contents (Elt F) → (⟨S8x4096x1, .f32⟩ : BufTy).Contents (Elt F)),
    unary main_v5 main_v6 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_arg0 main_v6 main_v7 (mulf : (⟨S8x4096x1024, .f32⟩ : BufTy).Contents (Elt F) → (⟨S8x4096x1024, .f32⟩ : BufTy).Contents (Elt F) → (⟨S8x4096x1024, .f32⟩ : BufTy).Contents (Elt F)),
    unary main_v7 main_v8 ((Host.roundeven) : (⟨S8x4096x1024, .f32⟩ : BufTy).Contents (Elt F) → (⟨S8x4096x1024, .f32⟩ : BufTy).Contents (Elt F)),
    nullary main_c (constantI S_ 32 4294967168#32),
    nullary main_c_2 (constantI S_ 32 127#32),
    unary main_c main_call2_v0 (((sitofp .f32)) : (⟨S_, .i32⟩ : BufTy).Contents (Elt F) → (⟨S_, .f32⟩ : BufTy).Contents (Elt F)),
    unary main_call2_v0 main_call2_v1 (((broadcastInDim S8x4096x1024 ![] bcast_S_S8x4096x1024)) : (⟨S_, .f32⟩ : BufTy).Contents (Elt F) → (⟨S8x4096x1024, .f32⟩ : BufTy).Contents (Elt F)),
    binary main_call2_v1 main_v8 main_call2_v2 ((maximumf) : (⟨S8x4096x1024, .f32⟩ : BufTy).Contents (Elt F) → (⟨S8x4096x1024, .f32⟩ : BufTy).Contents (Elt F) → (⟨S8x4096x1024, .f32⟩ : BufTy).Contents (Elt F)),
    unary main_c_2 main_call2_v3 (((sitofp .f32)) : (⟨S_, .i32⟩ : BufTy).Contents (Elt F) → (⟨S_, .f32⟩ : BufTy).Contents (Elt F)),
    unary main_call2_v3 main_call2_v4 (((broadcastInDim S8x4096x1024 ![] bcast_S_S8x4096x1024)) : (⟨S_, .f32⟩ : BufTy).Contents (Elt F) → (⟨S8x4096x1024, .f32⟩ : BufTy).Contents (Elt F)),
    binary main_call2_v4 main_call2_v2 main_v9 ((minimumf) : (⟨S8x4096x1024, .f32⟩ : BufTy).Contents (Elt F) → (⟨S8x4096x1024, .f32⟩ : BufTy).Contents (Elt F) → (⟨S8x4096x1024, .f32⟩ : BufTy).Contents (Elt F)),
    unary main_v5 main_v10 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v9 main_v10 main_v11 (Host.divf : (⟨S8x4096x1024, .f32⟩ : BufTy).Contents (Elt F) → (⟨S8x4096x1024, .f32⟩ : BufTy).Contents (Elt F) → (⟨S8x4096x1024, .f32⟩ : BufTy).Contents (Elt F)),
    binary main_v11 main_arg0 main_v12 (subf : (⟨S8x4096x1024, .f32⟩ : BufTy).Contents (Elt F) → (⟨S8x4096x1024, .f32⟩ : BufTy).Contents (Elt F) → (⟨S8x4096x1024, .f32⟩ : BufTy).Contents (Elt F)),
    binary main_arg0 main_v12 main_v13 (addf : (⟨S8x4096x1024, .f32⟩ : BufTy).Contents (Elt F) → (⟨S8x4096x1024, .f32⟩ : BufTy).Contents (Elt F) → (⟨S8x4096x1024, .f32⟩ : BufTy).Contents (Elt F)),
    unary main_arg1 main_v14 (Host.absf : (⟨S1024x1024, .f32⟩ : BufTy).Contents (Elt F) → (⟨S1024x1024, .f32⟩ : BufTy).Contents (Elt F)),
    nullary main_cst_3 (constant S_ .f32 0x00000000#32),
    binary main_v14 main_cst_3 main_v15 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_4 (constant S_ .f32 0x49800000#32),
    binary main_v15 main_cst_4 main_v16 (Host.divf : (⟨S_, .f32⟩ : BufTy).Contents (Elt F) → (⟨S_, .f32⟩ : BufTy).Contents (Elt F) → (⟨S_, .f32⟩ : BufTy).Contents (Elt F)),
    nullary main_cst_5 (constant S_ .f32 0x3727C5AC#32),
    unary main_cst_5 main_call3_v0 ((id) : (⟨S_, .f32⟩ : BufTy).Contents (Elt F) → (⟨S_, .f32⟩ : BufTy).Contents (Elt F)),
    binary main_call3_v0 main_v16 main_v17 ((maximumf) : (⟨S_, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S1024x1024 ![] bcast_S_S1024x1024 : (⟨S_, .f32⟩ : BufTy).Contents (Elt F) → (⟨S1024x1024, .f32⟩ : BufTy).Contents (Elt F)),
    binary main_arg1 main_v19 main_v20 (mulf : (⟨S1024x1024, .f32⟩ : BufTy).Contents (Elt F) → (⟨S1024x1024, .f32⟩ : BufTy).Contents (Elt F) → (⟨S1024x1024, .f32⟩ : BufTy).Contents (Elt F)),
    unary main_v20 main_v21 ((Host.roundeven) : (⟨S1024x1024, .f32⟩ : BufTy).Contents (Elt F) → (⟨S1024x1024, .f32⟩ : BufTy).Contents (Elt F)),
    nullary main_c_7 (constantI S_ 32 4294967295#32),
    nullary main_c_8 (constantI S_ 32 1#32),
    unary main_c_7 main_call5_v0 (((sitofp .f32)) : (⟨S_, .i32⟩ : BufTy).Contents (Elt F) → (⟨S_, .f32⟩ : BufTy).Contents (Elt F)),
    unary main_call5_v0 main_call5_v1 (((broadcastInDim S1024x1024 ![] bcast_S_S1024x1024)) : (⟨S_, .f32⟩ : BufTy).Contents (Elt F) → (⟨S1024x1024, .f32⟩ : BufTy).Contents (Elt F)),
    binary main_call5_v1 main_v21 main_call5_v2 ((maximumf) : (⟨S1024x1024, .f32⟩ : BufTy).Contents (Elt F) → (⟨S1024x1024, .f32⟩ : BufTy).Contents (Elt F) → (⟨S1024x1024, .f32⟩ : BufTy).Contents (Elt F)),
    unary main_c_8 main_call5_v3 (((sitofp .f32)) : (⟨S_, .i32⟩ : BufTy).Contents (Elt F) → (⟨S_, .f32⟩ : BufTy).Contents (Elt F)),
    unary main_call5_v3 main_call5_v4 (((broadcastInDim S1024x1024 ![] bcast_S_S1024x1024)) : (⟨S_, .f32⟩ : BufTy).Contents (Elt F) → (⟨S1024x1024, .f32⟩ : BufTy).Contents (Elt F)),
    binary main_call5_v4 main_call5_v2 main_v22 ((minimumf) : (⟨S1024x1024, .f32⟩ : BufTy).Contents (Elt F) → (⟨S1024x1024, .f32⟩ : BufTy).Contents (Elt F) → (⟨S1024x1024, .f32⟩ : BufTy).Contents (Elt F)),
    unary main_v18 main_v23 (broadcastInDim S1024x1024 ![] bcast_S_S1024x1024 : (⟨S_, .f32⟩ : BufTy).Contents (Elt F) → (⟨S1024x1024, .f32⟩ : BufTy).Contents (Elt F)),
    binary main_v22 main_v23 main_v24 (Host.divf : (⟨S1024x1024, .f32⟩ : BufTy).Contents (Elt F) → (⟨S1024x1024, .f32⟩ : BufTy).Contents (Elt F) → (⟨S1024x1024, .f32⟩ : BufTy).Contents (Elt F)),
    binary main_v24 main_arg1 main_v25 (subf : (⟨S1024x1024, .f32⟩ : BufTy).Contents (Elt F) → (⟨S1024x1024, .f32⟩ : BufTy).Contents (Elt F) → (⟨S1024x1024, .f32⟩ : BufTy).Contents (Elt F)),
    binary main_arg1 main_v25 main_v26 (addf : (⟨S1024x1024, .f32⟩ : BufTy).Contents (Elt F) → (⟨S1024x1024, .f32⟩ : BufTy).Contents (Elt F) → (⟨S1024x1024, .f32⟩ : BufTy).Contents (Elt F)),
    binary main_v13 main_v26 main_v27 ((fun l r => Host.dotGeneral dot_S8x4096x1024_S1024x1024_S8x4096x1024_2_1_01_0_n_n none l r) : (⟨S8x4096x1024, .f32⟩ : BufTy).Contents (Elt F) → (⟨S1024x1024, .f32⟩ : BufTy).Contents (Elt F) → (⟨S8x4096x1024, .f32⟩ : BufTy).Contents (Elt F)),
    unary main_arg2 main_v28 (broadcastInDim S1x1x1024 ![2] bcast_S1024_S1x1x1024_2 : (⟨S1024, .f32⟩ : BufTy).Contents (Elt F) → (⟨S1x1x1024, .f32⟩ : BufTy).Contents (Elt F)),
    unary main_v28 main_v29 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v27 main_v29 main_v30 (addf : (⟨S8x4096x1024, .f32⟩ : BufTy).Contents (Elt F) → (⟨S8x4096x1024, .f32⟩ : BufTy).Contents (Elt F) → (⟨S8x4096x1024, .f32⟩ : BufTy).Contents (Elt F)) ]

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_sub : (ops : List (HloOp τ sig (Elt F))).Forall fun op => op.bufs ⊆ tcRefs τ sig :=
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub .., unary_bufs_sub .., unary_bufs_sub .., binary_bufs_sub ..⟩

set_option maxRecDepth 16384 in
set_option maxHeartbeats 2000000 in
/-- From any memory with zero counters every weakly fair execution of the reference terminates with the result
    buffer at `refOut` of the three arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v30).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefValue

end
-- ==== Proof.RefIdx.lean ====
/-
  Index facts of the reference's layouts: row (b, s) of the activations; a scalar broadcast reads the scalar; a
  column broadcast back along the last axis reads the column at the row; the per-row values as a column read the
  per-row value; and a reduced index (b, s) with the last coordinate put back is (b, s, k).
-/
import proofs.«164057_j25314537243014_2_alg».proof.Proof.RefRun
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- Row (b, s) of the activations. -/
def rowAt (x : (⟨S8x4096x1024, .f32⟩ : BufTy).Contents (Elt Ideal)) (b : Fin 8) (s : Fin 4096) : Fin 1024 → EReal := fun k => x (ix3 b s k)

/-- A scalar broadcast to any shape reads the scalar. -/
theorem bcast_scalar {α : Type} {t : Shape} (h : S_.BroadcastsInDim t (![] : Fin 0 → Fin t.rank)) (c : S_.Idx → α) (j : t.Idx) :
    broadcastInDim t ![] h c j = c ix0 :=
  broadcastInDim_apply _ h c j ix0 (fun a => a.elim0)

/-- A column broadcast back along the last axis reads the column at the row. -/
theorem bcast_col (v : (⟨S8x4096x1, .f32⟩ : BufTy).Contents (Elt Ideal)) (b : Fin 8) (s : Fin 4096) (k : Fin 1024) :
    broadcastInDim S8x4096x1024 ![0, 1, 2] bcast_S8x4096x1_S8x4096x1024_0_1_2 v (ix3 b s k) = v (ix3 b s (0 : Fin 1)) :=
  broadcastInDim_apply _ bcast_S8x4096x1_S8x4096x1024_0_1_2 v (ix3 b s k) (ix3 b s (0 : Fin 1)) (fun a => match a with
    | ⟨0, _⟩ => by show b.val = if (8 : Nat) = 1 then 0 else b.val; rw [if_neg (by decide)]
    | ⟨1, _⟩ => by show s.val = if (4096 : Nat) = 1 then 0 else s.val; rw [if_neg (by decide)]
    | ⟨2, _⟩ => by show 0 = if (1 : Nat) = 1 then 0 else k.val; rw [if_pos rfl])

/-- The per-row values as a column read the per-row value. -/
theorem bcast_rows (v : (⟨S8x4096, .f32⟩ : BufTy).Contents (Elt Ideal)) (b : Fin 8) (s : Fin 4096) (z : Fin 1) :
    broadcastInDim S8x4096x1 ![0, 1] bcast_S8x4096_S8x4096x1_0_1 v (ix3 b s z) = v (ix2 b s) :=
  broadcastInDim_apply _ bcast_S8x4096_S8x4096x1_0_1 v (ix3 b s z) (ix2 b s) (fun a => match a with
    | ⟨0, _⟩ => by show b.val = if (8 : Nat) = 1 then 0 else b.val; rw [if_neg (by decide)]
    | ⟨1, _⟩ => by show s.val = if (4096 : Nat) = 1 then 0 else s.val; rw [if_neg (by decide)])

/-- The reduced index (b, s) with the last coordinate k put back is (b, s, k). -/
theorem lift_row (h : S8x4096x1024.Reduces [2] S8x4096) (b : Fin 8) (s : Fin 4096) (k : Fin (S8x4096x1024.size 2)) :
    h.lift (ix2 b s) k = ix3 b s (⟨k.val, k.isLt⟩ : Fin 1024) := by
  funext c; apply Fin.ext
  fin_cases c <;> rfl

end Cert.ReferenceIdeal.RefValue

end
-- ==== Proof.Spec.lean ====
/-
  The mathematics of the two programs, with no program in sight. One row of activations x (n entries) and the
  whole weight w are quantised the same way on both sides: the row's top magnitude T = max_k |x k|, clamped
  below by a small positive e, gives the denominator d = max e T; the grid value of entry k is
  q k = clamp(−128, 127, round-to-even (x k · (127 / d))). The weight's mean magnitude over all its entries,
  clamped the same way, gives c, and its grid value is t j = clamp(−1, 1, round-to-even (w j · (1 / c))).

  The kernel contracts the GRID values and rescales once per output element:
      (Σ_k q k · t (col k)) · (d · (c · (1/127))) + b.
  The reference first puts each operand back on its own scale, in the straight-through form
  x k + (q k / (127/d) − x k) and w j + (t j / (1/c) − w j), and contracts those:
      Σ_k (x k + (q k / (127/d) − x k)) · (w (col k) + (t (col k) / (1/c) − w (col k))) + b.
  When every x k and every w j is a real number the two agree: then T is not +∞, so d and c are positive reals,
  every grid value is a real (it lies between the clamp's ends), a + (u − a) = u, dividing by 127/d is multiplying
  by d/127, dividing by 1/c is multiplying by c, and the common factor d · c / 127 moves out of the finite sum.
  Finiteness is used exactly there: on the extended reals a + (u − a) = u and the distributive law both fail at ±∞.
-/
import Idealize.ShloMosaic.PureOps.Ideal

noncomputable section

namespace Cert.BitLinear

open Idealize.ShloMosaic

/-! ## The shared vocabulary -/

/-- The magnitude of an extended real, as both programs take it: the larger of x and −x. -/
def mag (x : EReal) : EReal := max x (-x)

/-- The top magnitude of a row, as a maximum taken from −∞. -/
def rowTop {n : ℕ} (v : Fin n → EReal) : EReal :=
  (Finset.univ : Finset (Fin n)).fold max ⊥ (fun k => mag (v k))

/-- A magnitude clamped below by the positive constant: a scale's denominator. -/
def den (e : ℝ) (top : EReal) : EReal := max (e : EReal) top

/-- Round to the nearest integer, ties to even, then clamp into [lo, hi]. -/
def quantize (lo hi : ℝ) (y : EReal) : EReal :=
  min (hi : EReal) (max (lo : EReal) (Ideal.liftRound Ideal.roundHalfEven y))

/-- Entry k of a row on the int8 grid. -/
def actQ (e : ℝ) {n : ℕ} (v : Fin n → EReal) (k : Fin n) : EReal :=
  quantize (-128) 127 (v k * Ideal.div ((127 : ℝ) : EReal) (den e (rowTop v)))

/-- The mean magnitude of the weight: the sum of all its magnitudes over 2^20. -/
def wMeanE {ι : Type} [Fintype ι] (w : ι → EReal) : EReal :=
  Ideal.div (0 + ∑ j, mag (w j)) ((1048576 : ℝ) : EReal)

/-- Entry j of the weight on the ternary grid. -/
def wQ (e : ℝ) {ι : Type} [Fintype ι] (w : ι → EReal) (j : ι) : EReal :=
  quantize (-1) 1 (w j * Ideal.div ((1 : ℝ) : EReal) (den e (wMeanE w)))

/-- One output element as the kernel computes it: grid values contracted, one rescale, the bias. -/
def kernelElt (e : ℝ) {n : ℕ} (x : Fin n → EReal) {ι : Type} [Fintype ι] (w : ι → EReal) (col : Fin n → ι) (b : EReal) : EReal :=
  (∑ k, actQ e x k * wQ e w (col k)) * (den e (rowTop x) * (den e (wMeanE w) * ((1 / 127 : ℝ) : EReal))) + b

/-- The element as the kernel's BODY computes it, before anything is known about where its operands come from: a row
    of activations, the column of weight grid values it meets, the weight's clamped mean magnitude and the bias. -/
def payElt (e : ℝ) {n : ℕ} (x : Fin n → EReal) (tcol : Fin n → EReal) (wc b : EReal) : EReal :=
  (∑ k, actQ e x k * tcol k) * (den e (rowTop x) * (wc * ((1 / 127 : ℝ) : EReal))) + b

/-- With the weight's own grid values and clamped mean put in, that is the kernel's element. -/
theorem kernelElt_eq_payElt (e : ℝ) {n : ℕ} (x : Fin n → EReal) {ι : Type} [Fintype ι] (w : ι → EReal) (col : Fin n → ι) (b : EReal) :
    kernelElt e x w col b = payElt e x (fun k => wQ e w (col k)) (den e (wMeanE w)) b := rfl

/-- The same element as the reference computes it: each operand dequantised in the straight-through form, then contracted. -/
def refElt (e : ℝ) {n : ℕ} (x : Fin n → EReal) {ι : Type} [Fintype ι] (w : ι → EReal) (col : Fin n → ι) (b : EReal) : EReal :=
  (∑ k, (x k + (Ideal.div (actQ e x k) (Ideal.div ((127 : ℝ) : EReal) (den e (rowTop x))) - x k))
        * (w (col k) + (Ideal.div (wQ e w (col k)) (Ideal.div ((1 : ℝ) : EReal) (den e (wMeanE w))) - w (col k)))) + b

/-! ## Everything in sight is a real number -/

/-- The coercion of the reals into the extended reals is monotone, so it commutes with max and min. -/
theorem coe_max' (a b : ℝ) : ((max a b : ℝ) : EReal) = max (a : EReal) (b : EReal) :=
  EReal.coe_strictMono.monotone.map_max
theorem coe_min' (a b : ℝ) : ((min a b : ℝ) : EReal) = min (a : EReal) (b : EReal) :=
  EReal.coe_strictMono.monotone.map_min

theorem mag_coe (r : ℝ) : mag (r : EReal) = ((|r| : ℝ) : EReal) := by
  unfold mag
  rw [abs_eq_max_neg, coe_max', EReal.coe_neg]

/-- A finite sum of reals, read in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of reals with a nonzero divisor is the real quotient. -/
theorem div_coe_coe (a b : ℝ) (hb : b ≠ 0) : Ideal.div (a : EReal) (b : EReal) = ((a / b : ℝ) : EReal) := by
  rw [Ideal.div_coe hb, ← EReal.coe_mul, mul_one_div]

/-- A clamped value is a real, whatever was clamped. -/
theorem quantize_real (lo hi : ℝ) (y : EReal) : ∃ r : ℝ, quantize lo hi y = (r : EReal) := by
  unfold quantize
  generalize Ideal.liftRound Ideal.roundHalfEven y = z
  induction z using EReal.rec with
  | bot => exact ⟨min hi lo, by rw [max_bot_right, coe_min']⟩
  | coe r => exact ⟨min hi (max lo r), by rw [coe_min', coe_max']⟩
  | top => exact ⟨hi, by rw [max_top_right, min_top_right]⟩

/-- A denominator is a positive real as soon as the clamped magnitude is not +∞. -/
theorem den_pos {e : ℝ} (he : 0 < e) (top : EReal) (htop : top ≠ ⊤) : ∃ r : ℝ, 0 < r ∧ den e top = (r : EReal) := by
  unfold den
  induction top using EReal.rec with
  | bot => exact ⟨e, he, max_bot_right _⟩
  | coe r => exact ⟨max e r, lt_max_of_lt_left he, (coe_max' e r).symm⟩
  | top => exact absurd rfl htop

/-- A row of reals has a top magnitude below +∞. -/
theorem rowTop_ne_top {n : ℕ} (v : Fin n → EReal) (hv : ∀ k, ∃ r : ℝ, v k = (r : EReal)) : rowTop v ≠ ⊤ := by
  refine ne_of_lt ?_
  unfold rowTop
  rw [Finset.fold_max_lt]
  refine ⟨bot_lt_top, fun k _ => ?_⟩
  obtain ⟨r, hr⟩ := hv k
  rw [hr, mag_coe]
  exact EReal.coe_lt_top _

/-- A weight of reals has a real mean magnitude. -/
theorem wMeanE_real {ι : Type} [Fintype ι] (w : ι → EReal) (hw : ∀ j, ∃ r : ℝ, w j = (r : EReal)) :
    ∃ r : ℝ, wMeanE w = (r : EReal) := by
  choose wr hwr using hw
  refine ⟨(∑ j, |wr j|) / 1048576, ?_⟩
  unfold wMeanE
  simp only [hwr, mag_coe]
  rw [coe_sum, zero_add, div_coe_coe _ _ (by norm_num)]

/-! ## The two forms agree on real inputs -/

theorem kernelElt_eq_refElt {e : ℝ} (he : 0 < e) {n : ℕ} (x : Fin n → EReal) {ι : Type} [Fintype ι] (w : ι → EReal)
    (col : Fin n → ι) (b : EReal) (hx : ∀ k, ∃ r : ℝ, x k = (r : EReal)) (hw : ∀ j, ∃ r : ℝ, w j = (r : EReal)) :
    kernelElt e x w col b = refElt e x w col b := by
  obtain ⟨d, hd, hden⟩ := den_pos he (rowTop x) (rowTop_ne_top x hx)
  obtain ⟨mw, hmw⟩ := wMeanE_real w hw
  obtain ⟨c, hc, hcden⟩ := den_pos he (wMeanE w) (by rw [hmw]; exact EReal.coe_ne_top _)
  choose q hq using fun k => quantize_real (-128) 127 (x k * Ideal.div ((127 : ℝ) : EReal) (den e (rowTop x)))
  choose t ht using fun j => quantize_real (-1) 1 (w j * Ideal.div ((1 : ℝ) : EReal) (den e (wMeanE w)))
  choose xr hxr using hx
  choose wr hwr using hw
  have hq' : ∀ k, actQ e x k = (q k : EReal) := hq
  have ht' : ∀ j, wQ e w j = (t j : EReal) := ht
  have h127 : (127 : ℝ) / d ≠ 0 := div_ne_zero (by norm_num) hd.ne'
  have h1 : (1 : ℝ) / c ≠ 0 := div_ne_zero one_ne_zero hc.ne'
  unfold kernelElt refElt
  simp only [hq', ht', hden, hcden, hxr, hwr]
  simp only [div_coe_coe 127 d hd.ne', div_coe_coe 1 c hc.ne', div_coe_coe _ _ h127, div_coe_coe _ _ h1,
    ← EReal.coe_sub, ← EReal.coe_add, ← EReal.coe_mul, coe_sum]
  congr 2
  rw [Finset.sum_mul]
  refine Finset.sum_congr rfl fun k _ => ?_
  field_simp
  ring

end Cert.BitLinear

end
-- ==== Proof.Lits.lean ====
/-
  The float constants the two programs spell, as the extended reals their bit patterns denote, and the small
  integers the reference converts to floats. Stated once here, so that no other module opens the meaning of a
  bit pattern: 127 and −128 (the int8 grid's ends and the scale's numerator), 1 and −1 (the ternary grid's
  ends and the weight scale's numerator), 2^20 (the number of weight entries), 0 (a sum's start), −∞ (a
  maximum's start), +∞ (the bound the precondition compares magnitudes with), and the small positive clamp 10995116 · 2^(−40) ≈ 1e-5 that keeps both scales' denominators
  away from zero.
-/
import Idealize.ShloMosaic.PureOps.Ideal

noncomputable section

namespace Cert.BitLinear.Lits

open Idealize.ShloMosaic

theorem ofBits_127 : Ideal.ofBits .f32 0x42FE0000#32 = ((127 : ℝ) : EReal) := by
  simp [Ideal.ofBits, Ideal.ieee, -EReal.coe_mul]; norm_num

theorem ofBits_neg128 : Ideal.ofBits .f32 0xC3000000#32 = ((-128 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two_pow_20 : Ideal.ofBits .f32 0x49800000#32 = ((1048576 : ℝ) : EReal) := by
  simp [Ideal.ofBits, Ideal.ieee, -EReal.coe_mul]; norm_num

theorem ofBits_zero : Ideal.ofBits .f32 0x00000000#32 = 0 := by
  simp [Ideal.ofBits, Ideal.ieee]

theorem ofBits_neg_inf : Ideal.ofBits .f32 0xFF800000#32 = (⊥ : EReal) := by
  simp [Ideal.ofBits, Ideal.ieee]

theorem ofBits_pos_inf : Ideal.ofBits .f32 0x7F800000#32 = (⊤ : EReal) := by
  simp [Ideal.ofBits, Ideal.ieee]

/-- The clamp constant as a real. -/
def epsR : ℝ := 10995116 * (2 : ℝ) ^ (-40 : ℤ)

theorem epsR_pos : 0 < epsR := by unfold epsR; positivity

theorem ofBits_eps : Ideal.ofBits .f32 0x3727C5AC#32 = ((epsR : ℝ) : EReal) := by
  unfold epsR
  simp [Ideal.ofBits, Ideal.ieee, -EReal.coe_mul]

/-- The four integers the reference's clamps convert: 127, −128, 1, −1 as 32-bit words read signed. -/
theorem toInt_127 : ((127#32 : BitVec 32).toInt : ℝ) = 127 := by norm_num [BitVec.toInt]
theorem toInt_neg128 : ((4294967168#32 : BitVec 32).toInt : ℝ) = -128 := by
  have : (4294967168#32 : BitVec 32).toInt = -128 := by decide
  rw [this]; norm_num
theorem toInt_one : ((1#32 : BitVec 32).toInt : ℝ) = 1 := by
  have : (1#32 : BitVec 32).toInt = 1 := by decide
  rw [this]; norm_num
theorem toInt_neg_one : ((4294967295#32 : BitVec 32).toInt : ℝ) = -1 := by
  have : (4294967295#32 : BitVec 32).toInt = -1 := by decide
  rw [this]; norm_num

end Cert.BitLinear.Lits

end
-- ==== Proof.RefAct.lean ====
/-
  The activation side of the reference, one row at a time: the row's largest magnitude is the fold of max from −∞
  along the last axis, the clamp and the scale are column values, the grid value and the dequantised value are
  pointwise in the row's entry and the row's scale.
-/
import proofs.«164057_j25314537243014_2_alg».proof.Proof.RefIdx
import proofs.«164057_j25314537243014_2_alg».proof.Proof.Spec
import proofs.«164057_j25314537243014_2_alg».proof.Proof.Lits

noncomputable section

namespace Cert.ReferenceIdeal.RefValue

open Cert.ReferenceIdeal Cert.ReferenceIdeal.Gen Idealize.ShloMosaic Idealize.ShloMosaic.ValueIdx Cert.BitLinear

/-- The host's quotient, rounding and integer conversion are pointwise; at the exact instance they are the exact operations. -/
theorem hostDivf_apply {s : Shape} {φ : FTy} (a b : FVec Ideal s φ) (i : s.Idx) : Host.divf a b i = Ideal.div (a i) (b i) := rfl
theorem hostRoundeven_apply {s : Shape} {φ : FTy} (a : FVec Ideal s φ) (i : s.Idx) :
    Host.roundeven a i = Ideal.liftRound Ideal.roundHalfEven (a i) := rfl
theorem sitofp_const_apply (w : BitVec 32) (i : S_.Idx) :
    (sitofp (F := Ideal) .f32 (constantI S_ 32 w)) i = (((w.toInt : ℤ) : ℝ) : EReal) := rfl

/-- The row's largest magnitude, from −∞, is the specification's top magnitude of that row. -/
theorem rowMax_apply (x : (⟨S8x4096x1024, .f32⟩ : BufTy).Contents (Elt Ideal)) (b : Fin 8) (s : Fin 4096) :
    rowMax (F := Ideal) x (ix2 b s) = rowTop (rowAt x b s) := by
  have h : S8x4096x1024.Reduces [2] S8x4096 := by decide
  unfold rowMax
  rw [Host.reduce_eq_fold_single FloatOps.maximumf _ _ reducesTo_S8x4096x1024_S8x4096_d2 h h_S_]
  have hf : (Host.absf (F := Ideal) (φ := .f32) x ∘ h.lift (ix2 b s)) = fun k : Fin 1024 => mag (rowAt x b s k) :=
    funext fun k => by
      show Host.absf (F := Ideal) (φ := .f32) x (h.lift (ix2 b s) k) = _
      rw [lift_row h b s k]; rfl
  unfold rowTop
  rw [← Lits.ofBits_neg_inf]
  exact congrArg (fun f => Finset.fold max (Ideal.ofBits .f32 0xFF800000#32) f (Finset.univ : Finset (Fin 1024))) hf

theorem rowDen_apply (x : (⟨S8x4096x1024, .f32⟩ : BufTy).Contents (Elt Ideal)) (b : Fin 8) (s : Fin 4096) (z : Fin 1) :
    rowDen (F := Ideal) x (ix3 b s z) = den Lits.epsR (rowTop (rowAt x b s)) := by
  unfold rowDen den
  rw [maximumf_apply, bcast_scalar, bcast_rows, rowMax_apply, ← Lits.ofBits_eps]
  rfl

theorem rowScale_apply (x : (⟨S8x4096x1024, .f32⟩ : BufTy).Contents (Elt Ideal)) (b : Fin 8) (s : Fin 4096) (z : Fin 1) :
    rowScale (F := Ideal) x (ix3 b s z) = Ideal.div ((127 : ℝ) : EReal) (den Lits.epsR (rowTop (rowAt x b s))) := by
  unfold rowScale
  rw [hostDivf_apply, bcast_scalar, rowDen_apply, ← Lits.ofBits_127]
  rfl

theorem actGrid_apply (x : (⟨S8x4096x1024, .f32⟩ : BufTy).Contents (Elt Ideal)) (b : Fin 8) (s : Fin 4096) (k : Fin 1024) :
    actGrid (F := Ideal) x (ix3 b s k) = actQ Lits.epsR (rowAt x b s) k := by
  unfold actGrid actQ quantize
  rw [minimumf_apply, maximumf_apply, bcast_scalar, bcast_scalar, sitofp_const_apply, sitofp_const_apply, hostRoundeven_apply,
    mulf_apply, bcast_col, rowScale_apply, Lits.toInt_127, Lits.toInt_neg128]
  rfl

theorem actDeq_apply (x : (⟨S8x4096x1024, .f32⟩ : BufTy).Contents (Elt Ideal)) (b : Fin 8) (s : Fin 4096) (k : Fin 1024) :
    actDeq (F := Ideal) x (ix3 b s k)
      = rowAt x b s k + (Ideal.div (actQ Lits.epsR (rowAt x b s) k) (Ideal.div ((127 : ℝ) : EReal) (den Lits.epsR (rowTop (rowAt x b s)))) - rowAt x b s k) := by
  unfold actDeq
  rw [addf_apply, subf_apply, hostDivf_apply, actGrid_apply, bcast_col, rowScale_apply]
  rfl

end Cert.ReferenceIdeal.RefValue

end
-- ==== Proof.RefWeight.lean ====
/-
  The weight side of the reference: the mean magnitude is the sum of all magnitudes over their number, a scalar;
  the clamp and the scale are scalars broadcast to every entry; the grid value and the dequantised value are pointwise.
-/
import proofs.«164057_j25314537243014_2_alg».proof.Proof.RefIdx
import proofs.«164057_j25314537243014_2_alg».proof.Proof.Spec
import proofs.«164057_j25314537243014_2_alg».proof.Proof.Lits

noncomputable section

namespace Cert.ReferenceIdeal.RefValue

open Cert.ReferenceIdeal Cert.ReferenceIdeal.Gen Idealize.ShloMosaic Idealize.ShloMosaic.ValueIdx Cert.BitLinear

theorem wMean_apply (w : (⟨S1024x1024, .f32⟩ : BufTy).Contents (Elt Ideal)) (i : S_.Idx) : wMean (F := Ideal) w i = wMeanE w := by
  unfold wMean wMeanE
  show Ideal.div (Host.reduceAdd (F := Ideal) (Host.absf (F := Ideal) (φ := .f32) w) (constant (F := Ideal) S_ .f32 0x00000000#32) reducesTo_S1024x1024_S_d0_1 h_S_ i)
    (Ideal.ofBits .f32 0x49800000#32) = _
  simp only [Host.reduceAdd, Ideal.hostReduceAdd_def]
  rw [Ideal.hostReduceAdd_total reducesTo_S1024x1024_S_d0_1 (fun b => b.elim0) _ _ i, Lits.ofBits_two_pow_20]
  show Ideal.div (Ideal.ofBits .f32 0x00000000#32 + ∑ j : S1024x1024.Idx, mag (w j)) _ = _
  rw [Lits.ofBits_zero]

theorem wDen_apply (w : (⟨S1024x1024, .f32⟩ : BufTy).Contents (Elt Ideal)) (i : S_.Idx) : wDen (F := Ideal) w i = den Lits.epsR (wMeanE w) := by
  unfold wDen den
  rw [maximumf_apply, wMean_apply, ← Lits.ofBits_eps]
  rfl

theorem wScale_apply (w : (⟨S1024x1024, .f32⟩ : BufTy).Contents (Elt Ideal)) (i : S_.Idx) :
    wScale (F := Ideal) w i = Ideal.div ((1 : ℝ) : EReal) (den Lits.epsR (wMeanE w)) := by
  unfold wScale
  show Ideal.div (Ideal.ofBits .f32 0x3F800000#32) (wDen (F := Ideal) w i) = _
  rw [wDen_apply, Lits.ofBits_one]

theorem wGrid_apply (w : (⟨S1024x1024, .f32⟩ : BufTy).Contents (Elt Ideal)) (j : S1024x1024.Idx) : wGrid (F := Ideal) w j = wQ Lits.epsR w j := by
  unfold wGrid wQ quantize
  rw [minimumf_apply, maximumf_apply, bcast_scalar, bcast_scalar]
  show min (((1#32 : BitVec 32).toInt : ℝ) : EReal) (max (((4294967295#32 : BitVec 32).toInt : ℝ) : EReal)
    (Ideal.liftRound Ideal.roundHalfEven (w j * broadcastInDim S1024x1024 ![] bcast_S_S1024x1024 (wScale (F := Ideal) w) j))) = _
  rw [bcast_scalar, wScale_apply, Lits.toInt_one, Lits.toInt_neg_one]

theorem wDeq_apply (w : (⟨S1024x1024, .f32⟩ : BufTy).Contents (Elt Ideal)) (j : S1024x1024.Idx) :
    wDeq (F := Ideal) w j = w j + (Ideal.div (wQ Lits.epsR w j) (Ideal.div ((1 : ℝ) : EReal) (den Lits.epsR (wMeanE w))) - w j) := by
  unfold wDeq
  show w j + (Ideal.div (wGrid (F := Ideal) w j) (broadcastInDim S1024x1024 ![] bcast_S_S1024x1024 (wScale (F := Ideal) w) j) - w j) = _
  rw [wGrid_apply, bcast_scalar, wScale_apply]

end Cert.ReferenceIdeal.RefValue

end
-- ==== Proof.RefDot.lean ====
/-
  The contraction and the bias of the reference at an output element (b, s, n): the sum over the input features k
  of the left operand at (b, s, k) times the right operand at (n, k), and the bias at n.
-/
import proofs.«164057_j25314537243014_2_alg».proof.Proof.RefIdx

noncomputable section

namespace Cert.ReferenceIdeal.RefValue

open Cert.ReferenceIdeal Cert.ReferenceIdeal.Gen Idealize.ShloMosaic Idealize.ShloMosaic.ValueIdx

theorem lhs_0 (i : S8x4096x1024.Idx) (q : dot_S8x4096x1024_S1024x1024_S8x4096x1024_2_1_01_0_n_n.contr.Idx) : (dot_S8x4096x1024_S1024x1024_S8x4096x1024_2_1_01_0_n_n.lhsIdx i q 0).val = (i 0).val := by
  unfold DotDims.lhsIdx
  rw [dif_neg (show ¬(0 : Fin S8x4096x1024.rank) ∈ dot_S8x4096x1024_S1024x1024_S8x4096x1024_2_1_01_0_n_n.lhsBatch by decide), dif_pos (show (0 : Fin S8x4096x1024.rank) ∈ dot_S8x4096x1024_S1024x1024_S8x4096x1024_2_1_01_0_n_n.lhsNonContracting by decide)]
  rfl
theorem lhs_1 (i : S8x4096x1024.Idx) (q : dot_S8x4096x1024_S1024x1024_S8x4096x1024_2_1_01_0_n_n.contr.Idx) : (dot_S8x4096x1024_S1024x1024_S8x4096x1024_2_1_01_0_n_n.lhsIdx i q 1).val = (i 1).val := by
  unfold DotDims.lhsIdx
  rw [dif_neg (show ¬(1 : Fin S8x4096x1024.rank) ∈ dot_S8x4096x1024_S1024x1024_S8x4096x1024_2_1_01_0_n_n.lhsBatch by decide), dif_pos (show (1 : Fin S8x4096x1024.rank) ∈ dot_S8x4096x1024_S1024x1024_S8x4096x1024_2_1_01_0_n_n.lhsNonContracting by decide)]
  rfl
theorem lhs_2 (i : S8x4096x1024.Idx) (q : dot_S8x4096x1024_S1024x1024_S8x4096x1024_2_1_01_0_n_n.contr.Idx) : (dot_S8x4096x1024_S1024x1024_S8x4096x1024_2_1_01_0_n_n.lhsIdx i q 2).val = (q ⟨0, by decide⟩).val :=
  dot_S8x4096x1024_S1024x1024_S8x4096x1024_2_1_01_0_n_n.lhsIdx_val_of_single rfl i q
theorem rhs_0 (i : S8x4096x1024.Idx) (q : dot_S8x4096x1024_S1024x1024_S8x4096x1024_2_1_01_0_n_n.contr.Idx) : (dot_S8x4096x1024_S1024x1024_S8x4096x1024_2_1_01_0_n_n.rhsIdx i q 0).val = (i 2).val := by
  unfold DotDims.rhsIdx
  rw [dif_neg (show ¬(0 : Fin S1024x1024.rank) ∈ dot_S8x4096x1024_S1024x1024_S8x4096x1024_2_1_01_0_n_n.rhsBatch by decide), dif_pos (show (0 : Fin S1024x1024.rank) ∈ dot_S8x4096x1024_S1024x1024_S8x4096x1024_2_1_01_0_n_n.rhsNonContracting by decide)]
  rfl
theorem rhs_1 (i : S8x4096x1024.Idx) (q : dot_S8x4096x1024_S1024x1024_S8x4096x1024_2_1_01_0_n_n.contr.Idx) : (dot_S8x4096x1024_S1024x1024_S8x4096x1024_2_1_01_0_n_n.rhsIdx i q 1).val = (q ⟨0, by decide⟩).val :=
  dot_S8x4096x1024_S1024x1024_S8x4096x1024_2_1_01_0_n_n.rhsIdx_val_of_single rfl i q

/-- The host's product at (b, s, n): the sum over the input features k of the left operand at (b, s, k) times the right at (n, k). -/
theorem dot_apply (A : (⟨S8x4096x1024, .f32⟩ : BufTy).Contents (Elt Ideal)) (B : (⟨S1024x1024, .f32⟩ : BufTy).Contents (Elt Ideal)) (b : Fin 8) (s : Fin 4096) (n : Fin 1024) :
    Host.dotGeneral (F := Ideal) (φ₁ := .f32) (φ₂ := .f32) dot_S8x4096x1024_S1024x1024_S8x4096x1024_2_1_01_0_n_n none A B (ix3 b s n) = ∑ k : Fin 1024, A (ix3 b s k) * B (ix2 n k) := by
  simp only [Host.dotGeneral]
  rw [Ideal.dotGeneral_apply, ← Equiv.sum_comp (ValueIdx.contrEquiv1 dot_S8x4096x1024_S1024x1024_S8x4096x1024_2_1_01_0_n_n 1024 rfl rfl).symm]
  refine Finset.sum_congr rfl fun k _ => ?_
  have hk := ValueIdx.contrEquiv1_symm_val dot_S8x4096x1024_S1024x1024_S8x4096x1024_2_1_01_0_n_n 1024 rfl rfl k
  have el : dot_S8x4096x1024_S1024x1024_S8x4096x1024_2_1_01_0_n_n.lhsIdx (ix3 b s n) ((ValueIdx.contrEquiv1 dot_S8x4096x1024_S1024x1024_S8x4096x1024_2_1_01_0_n_n 1024 rfl rfl).symm k) = ix3 b s k := funext fun a => Fin.ext (by
    match a with
    | ⟨0, _⟩ => exact lhs_0 _ _
    | ⟨1, _⟩ => exact lhs_1 _ _
    | ⟨2, _⟩ => exact (lhs_2 _ _).trans hk)
  have er : dot_S8x4096x1024_S1024x1024_S8x4096x1024_2_1_01_0_n_n.rhsIdx (ix3 b s n) ((ValueIdx.contrEquiv1 dot_S8x4096x1024_S1024x1024_S8x4096x1024_2_1_01_0_n_n 1024 rfl rfl).symm k) = ix2 n k := funext fun a => Fin.ext (by
    match a with
    | ⟨0, _⟩ => exact rhs_0 _ _
    | ⟨1, _⟩ => exact (rhs_1 _ _).trans hk)
  rw [el, er]

/-- The bias broadcast over rows reads the bias at the output feature. -/
theorem bias_apply (v : (⟨S1024, .f32⟩ : BufTy).Contents (Elt Ideal)) (b : Fin 8) (s : Fin 4096) (n : Fin 1024) :
    broadcastInDim S8x4096x1024 ![0, 1, 2] bcast_S1x1x1024_S8x4096x1024_0_1_2 (broadcastInDim S1x1x1024 ![2] bcast_S1024_S1x1x1024_2 v) (ix3 b s n)
      = v (ix1 n) := by
  rw [broadcastInDim_apply _ bcast_S1x1x1024_S8x4096x1024_0_1_2 _ (ix3 b s n) (ix3 (0 : Fin 1) (0 : Fin 1) n) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show n.val = if (1024 : Nat) = 1 then 0 else n.val; rw [if_neg (by decide)])]
  exact broadcastInDim_apply _ bcast_S1024_S1x1x1024_2 v (ix3 (0 : Fin 1) (0 : Fin 1) n) (ix1 n) (fun a => match a with
    | ⟨0, _⟩ => by show n.val = if (1024 : Nat) = 1 then 0 else n.val; rw [if_neg (by decide)])

end Cert.ReferenceIdeal.RefValue

end
-- ==== Proof.RefElt.lean ====
/-
  The reference's result at an output element is the specification's reference-side element of that row.
-/
import proofs.«164057_j25314537243014_2_alg».proof.Proof.RefAct
import proofs.«164057_j25314537243014_2_alg».proof.Proof.RefWeight
import proofs.«164057_j25314537243014_2_alg».proof.Proof.RefDot

noncomputable section

namespace Cert.ReferenceIdeal.RefValue

open Cert.ReferenceIdeal Cert.ReferenceIdeal.Gen Idealize.ShloMosaic Idealize.ShloMosaic.ValueIdx Cert.BitLinear

/-- The reference's result at (b, s, n) is the specification's reference-side element of row (b, s), the weight's row n and the bias at n. -/
theorem refOut_apply (x : (⟨S8x4096x1024, .f32⟩ : BufTy).Contents (Elt Ideal)) (w : (⟨S1024x1024, .f32⟩ : BufTy).Contents (Elt Ideal)) (v : (⟨S1024, .f32⟩ : BufTy).Contents (Elt Ideal)) (b : Fin 8) (s : Fin 4096) (n : Fin 1024) :
    refOut (F := Ideal) x w v (ix3 b s n) = refElt Lits.epsR (rowAt x b s) w (fun k => ix2 n k) (v (ix1 n)) := by
  unfold refOut refElt
  rw [addf_apply, dot_apply, bias_apply]
  simp only [actDeq_apply, wDeq_apply]

end Cert.ReferenceIdeal.RefValue

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.KernelPay.lean ====
/-
  What the kernel's body computes from the blocks it loads, one output element at a time. A half block of 512
  rows of activations xs, the ternary matrix t (input features × output features), the weight's clamped mean ws
  and the bias row bs give, at row p and output feature n: the row's top magnitude as the fold of max from −∞
  along the lane axis, the clamped denominator and the scale as column values, the grid values of the row, their
  contraction with column n of t, one rescale by denominator · (ws · 1/127), and the bias. The body's arithmetic is
  restated as named stages (equal to the printed payloads by unfolding), each stage is read at (p, n), and the
  result is the specification's body element of row p.
-/
import proofs.«164057_j25314537243014_2_alg».proof.Proof.Gen.KernelIdeal.Skeleton
import proofs.«164057_j25314537243014_2_alg».proof.Proof.Spec
import proofs.«164057_j25314537243014_2_alg».proof.Proof.Lits
import proofs.«164057_j25314537243014_2_alg».proof.Proof.LibLayout
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.KValue

open Cert.KernelIdeal Cert.KernelIdeal.Gen Idealize.ShloMosaic Idealize.ShloMosaic.ValueIdx Cert.BitLinear Cert.LibLayout

/-! ## The body's stages -/

/-- The loaded half block. -/
def kX (xs : Vec Ideal S512x1024 .f32) : FVec Ideal S512x1024 .f32 := shapeCast S512x1024 xs shapeCasts_S512x1024_S512x1024

/-- Each row's top magnitude, from −∞ along the lanes. -/
def kTop (xs : Vec Ideal S512x1024 .f32) : FVec Ideal S512 .f32 :=
  multiReduction .maximumf [1] S512 (absf (kX xs)) 0xFF800000#32 reduces_S512x1024_S512 (.inl rfl) rfl

/-- That magnitude clamped below, as a column. -/
def kDen (xs : Vec Ideal S512x1024 .f32) : FVec Ideal S512x1 .f32 :=
  maximumf (broadcast S512x1 (Scalar.ofBits .f32 0x3727C5AC#32)) (shapeCast S512x1 (kTop xs) shapeCasts_S512_S512x1)

/-- The row's scale, 127 over the clamped magnitude. -/
def kScale (xs : Vec Ideal S512x1024 .f32) : FVec Ideal S512x1 .f32 :=
  divf (broadcast S512x1 (Scalar.ofBits .f32 0x42FE0000#32)) (kDen xs)

/-- The rows on the int8 grid. -/
def kGrid (xs : Vec Ideal S512x1024 .f32) : FVec Ideal S512x1024 .f32 :=
  minimumf (broadcast S512x1024 (Scalar.ofBits .f32 0x42FE0000#32))
    (maximumf (broadcast S512x1024 (Scalar.ofBits .f32 0xC3000000#32))
      (roundeven (mulf (kX xs) (broadcastTo S512x1024 (kScale xs) broadcasts_S512x1_S512x1024))))

/-- The grid values contracted with the ternary matrix, into a zero accumulator. -/
def kAcc (t : FVec Ideal S1024x1024 .bf16) (xs : Vec Ideal S512x1024 .f32) : FVec Ideal S512x1024 .f32 :=
  matmul dot_S512x1024_S1024x1024_S512x1024_1_0_0_1_n_n none (truncf .bf16 (kGrid xs) bitsLt_bf16_f32) t (constant S512x1024 .f32 0x00000000#32)

/-- The one rescale per row: the clamped magnitude times (the weight's clamped mean times the named 1/127). -/
def kFactor (ws : FVec Ideal S1x1 .f32) (xs : Vec Ideal S512x1024 .f32) : FVec Ideal S512x1 .f32 :=
  mulf (kDen xs) (broadcastTo S512x1 (mulf ws (broadcast S1x1 (Named.named κ "inv_127" 0x3C010204#32))) broadcasts_S1x1_S512x1)

/-- What is stored. -/
def kOut (t : FVec Ideal S1024x1024 .bf16) (ws : FVec Ideal S1x1 .f32) (bs : FVec Ideal S1x1024 .f32) (xs : Vec Ideal S512x1024 .f32) :
    FVec Ideal S512x1024 .f32 :=
  addf (mulf (kAcc t xs) (broadcastTo S512x1024 (kFactor ws xs) broadcasts_S512x1_S512x1024))
    (broadcastTo S512x1024 bs broadcasts_S1x1024_S512x1024)

/-- The two printed payloads are these stages: the second half block's directly, the first's through the three
    identity casts of the resident operands. -/
theorem pay1_eq (v1 : FVec Ideal S1024x1024 .bf16) (v3 : FVec Ideal S1x1 .f32) (v5 : FVec Ideal S1x1024 .f32) (v40 : Vec Ideal S512x1024 .f32) :
    k0_pay1 (F := Ideal) v1 v3 v5 v40 = kOut v1 v3 v5 v40 := rfl

theorem pay5_eq (v0 : Vec Ideal S1024x1024 .bf16) (v2 : Vec Ideal S1x1 .f32) (v4 : Vec Ideal S1x1024 .f32) (v9 : Vec Ideal S512x1024 .f32) :
    k0_pay5 (F := Ideal) v0 v2 v4 v9 = kOut (k0_pay2 v0) (k0_pay3 v2) (k0_pay4 v4) v9 := rfl

theorem pay2_eq (v0 : Vec Ideal S1024x1024 .bf16) : k0_pay2 (F := Ideal) v0 = v0 := shapeCast_self _ _
theorem pay3_eq (v2 : Vec Ideal S1x1 .f32) : k0_pay3 (F := Ideal) v2 = v2 := shapeCast_self _ _
theorem pay4_eq (v4 : Vec Ideal S1x1024 .f32) : k0_pay4 (F := Ideal) v4 = v4 := shapeCast_self _ _

/-! ## The stages at an index -/

/-- Row p of a half block. -/
def rowOf (xs : Vec Ideal S512x1024 .f32) (p : Fin 512) : Fin 1024 → EReal := fun k => xs (ix2 p k)

theorem kX_eq (xs : Vec Ideal S512x1024 .f32) : kX xs = xs := shapeCast_self _ _

/-- The kernel's magnitude is the specification's. -/
theorem absf_apply' (v : FVec Ideal S512x1024 .f32) (j : S512x1024.Idx) : absf v j = mag (v j) := rfl

theorem roundeven_apply' (v : FVec Ideal S512x1024 .f32) (j : S512x1024.Idx) :
    roundeven v j = Ideal.liftRound Ideal.roundHalfEven (v j) := rfl

/-- The reduced index p with the lane k put back is (p, k). -/
theorem lift_lane (h : S512x1024.Reduces [1] S512) (p : Fin 512) (k : Fin (S512x1024.size 1)) :
    h.lift (ix1 p) k = ix2 p (⟨k.val, k.isLt⟩ : Fin 1024) := by
  funext c; apply Fin.ext
  fin_cases c <;> rfl

theorem kTop_apply (xs : Vec Ideal S512x1024 .f32) (p : Fin 512) : kTop xs (ix1 p) = rowTop (rowOf xs p) := by
  unfold kTop
  rw [Ideal.multiReduction_maximumf_single (absf (kX xs)) 0xFF800000#32 reduces_S512x1024_S512 (.inl rfl) rfl (ix1 p), kX_eq]
  have hf : (absf (F := Ideal) (φ := .f32) xs ∘ (reduces_S512x1024_S512 : S512x1024.Reduces [1] S512).lift (ix1 p)) = fun k : Fin 1024 => mag (rowOf xs p k) :=
    funext fun k => by
      show absf (F := Ideal) (φ := .f32) xs ((reduces_S512x1024_S512 : S512x1024.Reduces [1] S512).lift (ix1 p) k) = _
      rw [lift_lane]; rfl
  unfold rowTop
  rw [← Lits.ofBits_neg_inf]
  exact congrArg (fun f => Finset.fold max (Ideal.ofBits .f32 0xFF800000#32) f (Finset.univ : Finset (Fin 1024))) hf

theorem kDen_apply (xs : Vec Ideal S512x1024 .f32) (p : Fin 512) (z : Fin 1) :
    kDen xs (ix2 p z) = den Lits.epsR (rowTop (rowOf xs p)) := by
  unfold kDen den
  rw [maximumf_apply, broadcast_apply, shapeCast_a_a1_apply, kTop_apply, ← Lits.ofBits_eps]
  rfl

theorem kScale_apply (xs : Vec Ideal S512x1024 .f32) (p : Fin 512) (z : Fin 1) :
    kScale xs (ix2 p z) = Ideal.div ((127 : ℝ) : EReal) (den Lits.epsR (rowTop (rowOf xs p))) := by
  unfold kScale
  rw [divf_apply, broadcast_apply, kDen_apply, ← Lits.ofBits_127]
  rfl

theorem kGrid_apply (xs : Vec Ideal S512x1024 .f32) (p : Fin 512) (k : Fin 1024) :
    kGrid xs (ix2 p k) = actQ Lits.epsR (rowOf xs p) k := by
  unfold kGrid actQ quantize
  rw [minimumf_apply, maximumf_apply, broadcast_apply, broadcast_apply, roundeven_apply', mulf_apply, broadcastTo_a1_ab_apply,
    kScale_apply, kX_eq, ← Lits.ofBits_127, ← Lits.ofBits_neg128]
  rfl

/-! ## The contraction -/

theorem lhs_0 (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_1 (j : S512x1024.Idx) (q : dot_S512x1024_S1024x1024_S512x1024_1_0_0_1_n_n.contr.Idx) : (dot_S512x1024_S1024x1024_S512x1024_1_0_0_1_n_n.lhsIdx j q 1).val = (q ⟨0, by decide⟩).val :=
  dot_S512x1024_S1024x1024_S512x1024_1_0_0_1_n_n.lhsIdx_val_of_single rfl j q
theorem rhs_0 (j : S512x1024.Idx) (q : dot_S512x1024_S1024x1024_S512x1024_1_0_0_1_n_n.contr.Idx) : (dot_S512x1024_S1024x1024_S512x1024_1_0_0_1_n_n.rhsIdx j q 0).val = (q ⟨0, by decide⟩).val :=
  dot_S512x1024_S1024x1024_S512x1024_1_0_0_1_n_n.rhsIdx_val_of_single rfl j q
theorem rhs_1 (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix product into the zero accumulator at (p, n): the sum over the input features k of the left operand
    at (p, k) times the right operand at (k, n). -/
theorem matmul_zero_apply (A : FVec Ideal S512x1024 .bf16) (B : FVec Ideal S1024x1024 .bf16) (p : Fin 512) (n : Fin 1024) :
    matmul dot_S512x1024_S1024x1024_S512x1024_1_0_0_1_n_n none A B (constant S512x1024 .f32 0x00000000#32) (ix2 p n) = ∑ k : Fin 1024, A (ix2 p k) * B (ix2 k n) := by
  refine (Ideal.matmul_constant_zero_apply dot_S512x1024_S1024x1024_S512x1024_1_0_0_1_n_n none A B (ix2 p n)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p n) ((ValueIdx.contrEquiv1 dot_S512x1024_S1024x1024_S512x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S512x1024_S1024x1024_S512x1024_1_0_0_1_n_n.rhsIdx (ix2 p n) ((ValueIdx.contrEquiv1 dot_S512x1024_S1024x1024_S512x1024_1_0_0_1_n_n 1024 rfl rfl).symm k) = ix2 k n := funext fun a => Fin.ext (by
    match a with
    | ⟨0, _⟩ => exact (rhs_0 _ _).trans hk
    | ⟨1, _⟩ => exact rhs_1 _ _)
  rw [el, er]

theorem kAcc_apply (t : FVec Ideal S1024x1024 .bf16) (xs : Vec Ideal S512x1024 .f32) (p : Fin 512) (n : Fin 1024) :
    kAcc t xs (ix2 p n) = ∑ k : Fin 1024, actQ Lits.epsR (rowOf xs p) k * t (ix2 k n) := by
  unfold kAcc
  rw [matmul_zero_apply]
  refine Finset.sum_congr rfl fun k _ => ?_
  rw [truncf_apply, kGrid_apply]

/-! ## The rescale, the bias, the element -/

/-- The kernel's folded reciprocal is named 1/127. -/
theorem inv_127 : Named.named (F := Ideal) κ "inv_127" (φ := .f32) 0x3C010204#32 = ((1 / 127 : ℝ) : EReal) :=
  IdealRules.named_const.ideal_named_scalar _ _ _ _ rfl

theorem kFactor_apply (ws : FVec Ideal S1x1 .f32) (xs : Vec Ideal S512x1024 .f32) (p : Fin 512) (z : Fin 1) :
    kFactor ws xs (ix2 p z) = den Lits.epsR (rowTop (rowOf xs p)) * (ws (ix2 (0 : Fin 1) (0 : Fin 1)) * ((1 / 127 : ℝ) : EReal)) := by
  unfold kFactor
  rw [mulf_apply, kDen_apply, broadcastTo_11_a1_apply, mulf_apply, broadcast_apply, inv_127]

/-- The stored value at (p, n) is the specification's body element of row p, column n of the ternary matrix, the
    weight's clamped mean and the bias at n. -/
theorem kOut_apply (t : FVec Ideal S1024x1024 .bf16) (ws : FVec Ideal S1x1 .f32) (bs : FVec Ideal S1x1024 .f32) (xs : Vec Ideal S512x1024 .f32)
    (p : Fin 512) (n : Fin 1024) :
    kOut t ws bs xs (ix2 p n)
      = payElt Lits.epsR (rowOf xs p) (fun k => t (ix2 k n)) (ws (ix2 (0 : Fin 1) (0 : Fin 1))) (bs (ix2 (0 : Fin 1) n)) := by
  unfold kOut payElt
  rw [addf_apply, mulf_apply, kAcc_apply, broadcastTo_a1_ab_apply, kFactor_apply, ValueIdx.broadcastTo_1b_ab_apply]

end Cert.KernelIdeal.KValue

end
-- ==== Proof.KernelBlock.lean ====
/-
  What one grid point leaves in the output's staging block. The body stores the block in two halves of 512 rows;
  each half's payload, at its local index, is the body's element of the corresponding row of the loaded
  activation block — local row p of the half starting at row o is block row o + p. So every piece restricts ONE
  function of the block index (row, output feature), and what the two covering stores leave is that function:
  the body's element of the block's row, the column of the ternary matrix, the weight's clamped mean, the bias.
-/
import proofs.«164057_j25314537243014_2_alg».proof.Proof.Gen.KernelIdeal.Frame
import proofs.«164057_j25314537243014_2_alg».proof.Proof.KernelPay
import Idealize.ShloMosaic.Lib.Pipeline.Value
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem Idealize.ShloMosaic.Tactic
open Idealize.ShloMosaic.ValueIdx Cert.BitLinear

/-- The block a point leaves, as one function of the block index (row, output feature) and the four loaded blocks. -/
def blockFn (x0 : Vec Ideal S1024x1024 .f32) (x1 : Vec Ideal S1024x1024 .bf16) (x2 : Vec Ideal S1x1 .f32) (x3 : Vec Ideal S1x1024 .f32) :
    S1024x1024.Idx → EReal :=
  fun y => payElt Lits.epsR (fun k : Fin 1024 => x0 (ix2 (y 0) k)) (fun k : Fin 1024 => x1 (ix2 k (y 1)))
    (x2 (ix2 (0 : Fin 1) (0 : Fin 1))) (x3 (ix2 (0 : Fin 1) (y 1)))

theorem hz2 : (![0, 0] : Fin 2 → Nat) = fun _ => 0 := funext fun a => by fin_cases a <;> rfl

/-- A half block of 512 rows loaded from row o on, run through the body, is the block function at the rows o + p. -/
theorem half_piece (o : ℕ) (inb : ∀ a, (![o, 0] : Fin 2 → ℕ) a + (![512, 1024] : Fin 2 → ℕ) a ≤ S1024x1024.size a)
    (x0 : Vec Ideal S1024x1024 .f32) (x1 : Vec Ideal S1024x1024 .bf16) (x2 : Vec Ideal S1x1 .f32) (x3 : Vec Ideal S1x1024 .f32)
    (j : (Rect.unit (s := S1024x1024) ![o, 0] ![512, 1024] inb).shape.Idx) :
    kOut x1 x2 x3 (View.ld x0 (Rect.unit (s := S1024x1024) ![o, 0] ![512, 1024] inb)) j
      = blockFn x0 x1 x2 x3 ((Rect.unit (s := S1024x1024) ![o, 0] ![512, 1024] inb).emb j) := by
  obtain ⟨p, n, rfl⟩ : ∃ (p : Fin 512) (n : Fin 1024), j = ix2 p n := ⟨j 0, j 1, eq_ix2 j⟩
  rw [kOut_apply]
  unfold blockFn
  have e1 : rowOf (View.ld x0 (Rect.unit (s := S1024x1024) ![o, 0] ![512, 1024] inb)) p
      = fun k : Fin 1024 => x0 (ix2 ((Rect.unit (s := S1024x1024) ![o, 0] ![512, 1024] inb).emb (ix2 p n) 0) k) :=
    funext fun k => congrArg x0 (funext fun a => Fin.ext (by
      match a with
      | ⟨0, _⟩ => rfl
      | ⟨1, _⟩ => show 0 + 1 * k.val = k.val; omega))
  have e2 : (Rect.unit (s := S1024x1024) ![o, 0] ![512, 1024] inb).emb (ix2 p n) 1 = n :=
    Fin.ext (by show 0 + 1 * n.val = n.val; omega)
  rw [e1, e2]

/-- What the body's two covering stores leave in the output's staging block: the block function of the loaded blocks. -/
theorem out_eq (c : Dev nD) (i : grid0.Coords) (a1 : Memref sig .tc .vmem S1024x1024 .f32) (h1 : a1.IsWhole)
    (a2 : Memref sig .tc .vmem S1024x1024 .bf16) (h2 : a2.IsWhole) (a3 : Memref sig .tc .vmem S1x1 .f32) (h3 : a3.IsWhole)
    (a4 : Memref sig .tc .vmem S1x1024 .f32) (h4 : a4.IsWhole) (a5 : Memref sig .tc .vmem S1024x1024 .f32) (h5 : a5.IsWhole)
    (x0 : Vec Ideal S1024x1024 .f32) (x1 : Vec Ideal S1024x1024 .bf16) (x2 : Vec Ideal S1x1 .f32) (x3 : Vec Ideal S1x1024 .f32) :
    out0_A_4 (F := Ideal) c i a1 h1 a2 h2 a3 h3 a4 h4 a5 h5 x0 x1 x2 x3 = blockFn x0 x1 x2 x3 := by
  unfold out0_A_4
  rw [View.read_writes_eq_canon _ _ _ (cover0_A_4 c i a1 h1 a2 h2 a3 h3 a4 h4 a5 h5 x0 x1 x2 x3)]
  funext y
  refine View.canon_apply_of_pieces (blockFn x0 x1 x2 x3) _ ?_ y (cover0_A_4 c i a1 h1 a2 h2 a3 h3 a4 h4 a5 h5 x0 x1 x2 x3 y)
  unfold kernelRun0_A
  dsimp only
  sl_unfold_words
  intro p hp j
  rw [List.mem_cons, List.mem_singleton] at hp
  rcases hp with rfl | rfl
  · dsimp only
    simp only [View.readAt_eq_ld, h1.read_unread, h2.read_unread, h3.read_unread, h4.read_unread,
      View.ld_unit_zero (S := S1024x1024) hz2, View.ld_unit_zero (S := S1x1) hz2, View.ld_unit_zero (S := S1x1024) hz2]
    rw [pay1_eq, pay2_eq, pay3_eq, pay4_eq]
    exact half_piece 512 _ x0 x1 x2 x3 j
  · dsimp only
    simp only [View.readAt_eq_ld, h1.read_unread, h2.read_unread, h3.read_unread, h4.read_unread,
      View.ld_unit_zero (S := S1024x1024) hz2, View.ld_unit_zero (S := S1x1) hz2, View.ld_unit_zero (S := S1x1024) hz2]
    rw [pay5_eq, pay2_eq, pay3_eq, pay4_eq]
    exact half_piece 0 _ x0 x1 x2 x3 j

end Cert.KernelIdeal.KValue

end
-- ==== Proof.KernelArray.lean ====
/-
  From blocks to the array. Grid point t stages rows 1024·t … 1024·t + 1023 of the activations and writes the same
  rows of the result; the ternary matrix, the weight's clamped mean and the bias are the same whole arrays at every
  point. So what point t writes back is block t of ONE function of the four staged arrays — at (row, output feature)
  the body's element of that row of the activations —, every row lies in the block of the point row / 1024, and the
  result array after the run is that function.
-/
import proofs.«164057_j25314537243014_2_alg».proof.Proof.Gen.KernelIdeal.Frame
import proofs.«164057_j25314537243014_2_alg».proof.Proof.KernelBlock
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.BitLinear

variable (m : (ℓ : Loc nD τ sig) → Buf (Elt Ideal) ℓ) (ρ : Dev nD → PrngReg)

/-- The result array as one function of the four staged arrays: at (row, output feature) the body's element of that
    row of the activations, that column of the ternary matrix, the weight's clamped mean and the bias there. -/
def arrFn (X : S32768x1024.Idx → Elt Ideal .f32) (T : S1024x1024.Idx → Elt Ideal .bf16) (W : S1x1.Idx → Elt Ideal .f32)
    (B : S1x1024.Idx → Elt Ideal .f32) : S32768x1024.Idx → Elt Ideal .f32 :=
  fun i => payElt Lits.epsR (fun k : Fin 1024 => X (ix2 (i 0) k)) (fun k : Fin 1024 => T (ix2 k (i 1)))
    (W (ix2 (0 : Fin 1) (0 : Fin 1))) (B (ix2 (0 : Fin 1) (i 1)))

/-- The printed index maps, decided over the 32 grid points: the activations' and the result's blocks move together
    along the rows, at block row t; the three resident operands stay at block (0, 0). -/
theorem idx_facts : ∀ t : Fin cfg0.N,
    win0_0.index t (0 : Fin 2) = win0_4.index t (0 : Fin 2) ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val :=
  (by decide +kernel : ∀ t : Fin grid0.N, _)

/-- What point t writes back is block t of the array function of the staged arrays as the region finds them. -/
theorem flushed_eq (c : Dev nD) (t : Fin cfg0.N) :
    (dats m 0 c).flushed 4 t
      = ((cfg0.win 4).blk t).view.read (Elt Ideal) (arrFn (V m c main_v12) (V m c main_v10) (V m c main_v11) (V m c main_v13)) := by
  show (cfg0.win 4).cut (grid0.coords t) ((dats m 0 c).after 4 t) = _
  rw [after0_4]
  unfold outsAt0
  rw [out_eq]
  obtain ⟨e0, e1, e2, e3, e4, e5, e6, e7, e8, e9⟩ := idx_facts t
  funext j
  show payElt Lits.epsR (fun k : Fin 1024 => V m c main_v12 (((cfg0.win 0).blk t).view.emb (ix2 (j 0) k)))
      (fun k : Fin 1024 => V m c main_v10 (((cfg0.win 1).blk t).view.emb (ix2 k (j 1))))
      (V m c main_v11 (((cfg0.win 2).blk t).view.emb (ix2 (0 : Fin 1) (0 : Fin 1))))
      (V m c main_v13 (((cfg0.win 3).blk t).view.emb (ix2 (0 : Fin 1) (j 1))))
    = payElt Lits.epsR (fun k : Fin 1024 => V m c main_v12 (ix2 ((((cfg0.win 4).blk t).view.emb j) 0) k))
      (fun k : Fin 1024 => V m c main_v10 (ix2 k ((((cfg0.win 4).blk t).view.emb j) 1)))
      (V m c main_v11 (ix2 (0 : Fin 1) (0 : Fin 1)))
      (V m c main_v13 (ix2 (0 : Fin 1) ((((cfg0.win 4).blk t).view.emb j) 1)))
  have hj0 : (j 0).val < 1024 := (j 0).isLt
  have hj1 : (j 1).val < 1024 := (j 1).isLt
  have h0 : ∀ k : Fin 1024, ((cfg0.win 0).blk t).view.emb (ix2 (j 0) k) = ix2 ((((cfg0.win 4).blk t).view.emb j) 0) k := fun k => by
    funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 1024 + 1 * k.val = k.val; omega
  have h1 : ∀ k : Fin 1024, ((cfg0.win 1).blk t).view.emb (ix2 k (j 1)) = ix2 k ((((cfg0.win 4).blk t).view.emb j) 1) := fun k => by
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_4.index t (1 : Fin 2) * 1024 + 1 * (j 1).val; omega
  have h2 : ((cfg0.win 2).blk t).view.emb (ix2 (0 : Fin 1) (0 : Fin 1)) = ix2 (0 : Fin 1) (0 : Fin 1) := by
    funext a; apply Fin.ext
    match a with
    | ⟨0, _⟩ => show win0_2.index t (0 : Fin 2) * 1 + 1 * 0 = 0; omega
    | ⟨1, _⟩ => show win0_2.index t (1 : Fin 2) * 1 + 1 * 0 = 0; omega
  have h3 : ((cfg0.win 3).blk t).view.emb (ix2 (0 : Fin 1) (j 1)) = ix2 (0 : Fin 1) ((((cfg0.win 4).blk t).view.emb j) 1) := by
    funext a; apply Fin.ext
    match a with
    | ⟨0, _⟩ => show win0_3.index t (0 : Fin 2) * 1 + 1 * 0 = 0; omega
    | ⟨1, _⟩ => show win0_3.index t (1 : Fin 2) * 1024 + 1 * (j 1).val = win0_4.index t (1 : Fin 2) * 1024 + 1 * (j 1).val; omega
  simp only [h0, h1, h2, h3]
  rfl

/-- An index of the result array is in point t's block iff each coordinate is in the block's range on its axis. -/
theorem mem_blk (t : Fin cfg0.N) (i : S32768x1024.Idx) :
    i ∈ ((cfg0.win 4).blk t).view.set
      ↔ ∀ a : Fin 2, win0_4.index t a * S1024x1024.size a ≤ (i a).val ∧ (i a).val < win0_4.index t a * S1024x1024.size a + S1024x1024.size a := by
  show i ∈ ((View.whole main_v14).slice (win0_4.rect t)).set ↔ _
  rw [View.set_slice_whole, Rect.mem_set_unit]
  exact Iff.rfl

/-- Every index of the result array is in the block of the point its row / 1024. -/
theorem cover (i : S32768x1024.Idx) : ∃ t : Fin cfg0.N, (cfg0.win 4).flush t = true ∧ i ∈ ((cfg0.win 4).blk t).view.set := by
  have hi0 : (i 0).val < 32768 := (i 0).isLt
  have hi1 : (i 1).val < 1024 := (i 1).isLt
  have hN : cfg0.N = 32 := N_0
  have ht : (i 0).val / 1024 < cfg0.N := by rw [hN]; omega
  obtain ⟨e0, e1, e2, e3, e4, e5, e6, e7, e8, e9⟩ := idx_facts ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e9]; show (i 0).val / 1024 * 1024 ≤ (i 0).val ∧ (i 0).val < (i 0).val / 1024 * 1024 + 1024; omega
  | ⟨1, _⟩ =>
    show win0_4.index ⟨(i 0).val / 1024, ht⟩ (1 : Fin 2) * 1024 ≤ (i 1).val ∧ (i 1).val < win0_4.index ⟨(i 0).val / 1024, ht⟩ (1 : Fin 2) * 1024 + 1024
    rw [e2]; omega

/-- The result array after the run is the array function of the four staged arrays. -/
theorem final (c : Dev nD) :
    (dats m 0 c).arrAt 4 cfg0.N = arrFn (V m c main_v12) (V m c main_v10) (V m c main_v11) (V m c main_v13) :=
  (dats m 0 c).arrAt_eq_of_cover 4 _ (fun t _ => flushed_eq m c t) cover

end Cert.KernelIdeal.KValue

end
-- ==== Proof.KernelHost.lean ====
/-
  What the region finds in its four staged arrays. Before the pallas_call the host computes, from the weight alone,
  its mean magnitude (the sum of all magnitudes over their number), the clamp, the scale, and the weight on the
  ternary grid; it transposes that grid to (input features × output features) for the kernel, passes the clamped
  mean as a 1 × 1 array, and reshapes the activations to (rows × input features) and the bias to a row. The 26 host
  operations are listed once as one list, the staged arrays' contents are the operations' composed values of the
  arguments, and each is read at an index: the ternary matrix at (k, n) is the weight's grid value at (n, k), the
  1 × 1 array holds the weight's clamped mean, row b·4096 + s of the staged activations is row (b, s), the staged
  bias at (0, n) is the bias at n.
-/
import proofs.«164057_j25314537243014_2_alg».proof.Proof.Gen.KernelIdeal.Frame
import proofs.«164057_j25314537243014_2_alg».proof.Proof.Spec
import proofs.«164057_j25314537243014_2_alg».proof.Proof.Lits
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx Cert.BitLinear

/-! ## The host's weight-side stages -/

section Stages
variable {F : FTy → Type} [FloatOps F]

/-- The mean magnitude of the weight. -/
def kwMean (w : (⟨S1024x1024, .f32⟩ : BufTy).Contents (Elt F)) : (⟨S_, .f32⟩ : BufTy).Contents (Elt F) :=
  Host.divf (Host.reduceAdd (Host.absf w) (constant S_ .f32 0x00000000#32) reducesTo_S1024x1024_S_d0_1 h_S_) (constant S_ .f32 0x49800000#32)

/-- That mean clamped below by the small positive constant. -/
def kwDen (w : (⟨S1024x1024, .f32⟩ : BufTy).Contents (Elt F)) : (⟨S_, .f32⟩ : BufTy).Contents (Elt F) :=
  maximumf (id (constant S_ .f32 0x3727C5AC#32)) (kwMean w)

/-- The weight's scale, one over the clamped mean. -/
def kwScale (w : (⟨S1024x1024, .f32⟩ : BufTy).Contents (Elt F)) : (⟨S_, .f32⟩ : BufTy).Contents (Elt F) :=
  Host.divf (constant S_ .f32 0x3F800000#32) (kwDen w)

/-- The weight on the ternary grid. -/
def kwGrid (w : (⟨S1024x1024, .f32⟩ : BufTy).Contents (Elt F)) : (⟨S1024x1024, .f32⟩ : BufTy).Contents (Elt F) :=
  minimumf (broadcastInDim S1024x1024 ![] bcast_S_S1024x1024 (id (constant S_ .f32 0x3F800000#32)))
    (maximumf (broadcastInDim S1024x1024 ![] bcast_S_S1024x1024 (id (constant S_ .f32 0xBF800000#32)))
      (Host.roundeven (mulf w (broadcastInDim S1024x1024 ![] bcast_S_S1024x1024 (kwScale w)))))

end Stages

/-! ## The host operations before the region, as one list -/

section Prefix
variable {F : FTy → Type} [FloatOps F] [Named F]

/-- The 26 host operations before the pallas_call, in program order. -/
abbrev prefixOps : List (HloOp τ sig (Elt F)) :=
  [ StableHlo.unary main_arg1 main_v0 (Host.absf : (⟨S1024x1024, .f32⟩ : BufTy).Contents (Elt F) → (⟨S1024x1024, .f32⟩ : BufTy).Contents (Elt F)),
    StableHlo.nullary main_cst (constant S_ .f32 0x00000000#32),
    StableHlo.binary main_v0 main_cst main_v1 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_0 (constant S_ .f32 0x49800000#32),
    StableHlo.binary main_v1 main_cst_0 main_v2 (Host.divf : (⟨S_, .f32⟩ : BufTy).Contents (Elt F) → (⟨S_, .f32⟩ : BufTy).Contents (Elt F) → (⟨S_, .f32⟩ : BufTy).Contents (Elt F)),
    StableHlo.nullary main_cst_1 (constant S_ .f32 0x3727C5AC#32),
    StableHlo.unary main_cst_1 main_call0_v0 ((id) : (⟨S_, .f32⟩ : BufTy).Contents (Elt F) → (⟨S_, .f32⟩ : BufTy).Contents (Elt F)),
    StableHlo.binary main_call0_v0 main_v2 main_v3 ((maximumf) : (⟨S_, .f32⟩ : BufTy).Contents (Elt F) → (⟨S_, .f32⟩ : BufTy).Contents (Elt F) → (⟨S_, .f32⟩ : BufTy).Contents (Elt F)),
    StableHlo.nullary main_cst_2 (constant S_ .f32 0x3F800000#32),
    StableHlo.binary main_cst_2 main_v3 main_v4 (Host.divf : (⟨S_, .f32⟩ : BufTy).Contents (Elt F) → (⟨S_, .f32⟩ : BufTy).Contents (Elt F) → (⟨S_, .f32⟩ : BufTy).Contents (Elt F)),
    StableHlo.unary main_v4 main_v5 (broadcastInDim S1024x1024 ![] bcast_S_S1024x1024 : (⟨S_, .f32⟩ : BufTy).Contents (Elt F) → (⟨S1024x1024, .f32⟩ : BufTy).Contents (Elt F)),
    StableHlo.binary main_arg1 main_v5 main_v6 (mulf : (⟨S1024x1024, .f32⟩ : BufTy).Contents (Elt F) → (⟨S1024x1024, .f32⟩ : BufTy).Contents (Elt F) → (⟨S1024x1024, .f32⟩ : BufTy).Contents (Elt F)),
    StableHlo.unary main_v6 main_v7 ((Host.roundeven) : (⟨S1024x1024, .f32⟩ : BufTy).Contents (Elt F) → (⟨S1024x1024, .f32⟩ : BufTy).Contents (Elt F)),
    StableHlo.nullary main_cst_3 (constant S_ .f32 0xBF800000#32),
    StableHlo.nullary main_cst_4 (constant S_ .f32 0x3F800000#32),
    StableHlo.unary main_cst_3 main_call2_v0 ((id) : (⟨S_, .f32⟩ : BufTy).Contents (Elt F) → (⟨S_, .f32⟩ : BufTy).Contents (Elt F)),
    StableHlo.unary main_call2_v0 main_call2_v1 (((broadcastInDim S1024x1024 ![] bcast_S_S1024x1024)) : (⟨S_, .f32⟩ : BufTy).Contents (Elt F) → (⟨S1024x1024, .f32⟩ : BufTy).Contents (Elt F)),
    StableHlo.binary main_call2_v1 main_v7 main_call2_v2 ((maximumf) : (⟨S1024x1024, .f32⟩ : BufTy).Contents (Elt F) → (⟨S1024x1024, .f32⟩ : BufTy).Contents (Elt F) → (⟨S1024x1024, .f32⟩ : BufTy).Contents (Elt F)),
    StableHlo.unary main_cst_4 main_call2_v3 ((id) : (⟨S_, .f32⟩ : BufTy).Contents (Elt F) → (⟨S_, .f32⟩ : BufTy).Contents (Elt F)),
    StableHlo.unary main_call2_v3 main_call2_v4 (((broadcastInDim S1024x1024 ![] bcast_S_S1024x1024)) : (⟨S_, .f32⟩ : BufTy).Contents (Elt F) → (⟨S1024x1024, .f32⟩ : BufTy).Contents (Elt F)),
    StableHlo.binary main_call2_v4 main_call2_v2 main_v8 ((minimumf) : (⟨S1024x1024, .f32⟩ : BufTy).Contents (Elt F) → (⟨S1024x1024, .f32⟩ : BufTy).Contents (Elt F) → (⟨S1024x1024, .f32⟩ : BufTy).Contents (Elt F)),
    StableHlo.unary main_v8 main_v9 ((transpose S1024x1024 [1, 0] · transposes_S1024x1024_S1024x1024_1_0) : (⟨S1024x1024, .f32⟩ : BufTy).Contents (Elt F) → (⟨S1024x1024, .f32⟩ : BufTy).Contents (Elt F)),
    StableHlo.unary main_v9 main_v10 ((truncf .bf16 · bitsLt_bf16_f32) : (⟨S1024x1024, .f32⟩ : BufTy).Contents (Elt F) → (⟨S1024x1024, .bf16⟩ : BufTy).Contents (Elt F)),
    StableHlo.reshape main_v3 main_v11 rfl shapeCasts_S_S1x1,
    StableHlo.reshape main_arg0 main_v12 rfl shapeCasts_S8x4096x1024_S32768x1024,
    StableHlo.reshape main_arg2 main_v13 rfl shapeCasts_S1024_S1x1024 ]

/-- They are the generated stretches, put end to end. -/
theorem prefix_eq :
    (List.flatten [hostOps0, hostOps0_1, hostOps0_2, hostOps0_3, hostOps0_4, hostOps0_5, hostOps0_6] : List (HloOp τ sig (Elt F))) = prefixOps := rfl

end Prefix

variable (m : (ℓ : Loc nD τ sig) → Buf (Elt Ideal) ℓ)

/-! ## The staged arrays at region entry -/

set_option maxHeartbeats 1000000 in
/-- The ternary matrix the kernel is given: the weight's grid, transposed. -/
theorem V_tmat (c : Dev nD) :
    V m c main_v10 = truncf (F := Ideal) .bf16 (transpose S1024x1024 [1, 0] (kwGrid (F := Ideal) (m ((c : Thread nD τ).loc main_arg1))) transposes_S1024x1024_S1024x1024_1_0) bitsLt_bf16_f32 :=
  (congrArg (fun l => StableHlo.after l (fun b => m (c, b)) (Proc.devRef .tc main_v10)) prefix_eq).trans (by after_results_simp <;> rfl)

set_option maxHeartbeats 1000000 in
/-- The 1 × 1 array: the weight's clamped mean. -/
theorem V_wden (c : Dev nD) :
    V m c main_v11 = shapeCast S1x1 (kwDen (F := Ideal) (m ((c : Thread nD τ).loc main_arg1))) shapeCasts_S_S1x1 :=
  (congrArg (fun l => StableHlo.after l (fun b => m (c, b)) (Proc.devRef .tc main_v11)) prefix_eq).trans (by after_results_simp <;> rfl)

set_option maxHeartbeats 1000000 in
/-- The activations as rows. -/
theorem V_rows (c : Dev nD) :
    V m c main_v12 = shapeCast S32768x1024 (m ((c : Thread nD τ).loc main_arg0)) shapeCasts_S8x4096x1024_S32768x1024 :=
  (congrArg (fun l => StableHlo.after l (fun b => m (c, b)) (Proc.devRef .tc main_v12)) prefix_eq).trans (by after_results_simp <;> rfl)

set_option maxHeartbeats 1000000 in
/-- The bias as a row. -/
theorem V_bias (c : Dev nD) :
    V m c main_v13 = shapeCast S1x1024 (m ((c : Thread nD τ).loc main_arg2)) shapeCasts_S1024_S1x1024 :=
  (congrArg (fun l => StableHlo.after l (fun b => m (c, b)) (Proc.devRef .tc main_v13)) prefix_eq).trans (by after_results_simp <;> rfl)

/-! ## The weight-side stages at an index -/

theorem bcast_scalar' {α : Type} {t : Shape} (h : S_.BroadcastsInDim t (![] : Fin 0 → Fin t.rank)) (v : S_.Idx → α) (j : t.Idx) :
    broadcastInDim t ![] h v j = v ix0 :=
  broadcastInDim_apply _ h v j ix0 (fun a => a.elim0)

theorem hostDivf_apply' {s : Shape} {φ : FTy} (a b : FVec Ideal s φ) (i : s.Idx) : Host.divf a b i = Ideal.div (a i) (b i) := rfl
theorem hostRoundeven_apply' {s : Shape} {φ : FTy} (a : FVec Ideal s φ) (i : s.Idx) :
    Host.roundeven a i = Ideal.liftRound Ideal.roundHalfEven (a i) := rfl

theorem kwMean_apply (w : (⟨S1024x1024, .f32⟩ : BufTy).Contents (Elt Ideal)) (i : S_.Idx) : kwMean (F := Ideal) w i = wMeanE w := by
  unfold kwMean wMeanE
  show Ideal.div (Host.reduceAdd (F := Ideal) (Host.absf (F := Ideal) (φ := .f32) w) (constant (F := Ideal) S_ .f32 0x00000000#32) reducesTo_S1024x1024_S_d0_1 h_S_ i)
    (Ideal.ofBits .f32 0x49800000#32) = _
  simp only [Host.reduceAdd, Ideal.hostReduceAdd_def]
  rw [Ideal.hostReduceAdd_total reducesTo_S1024x1024_S_d0_1 (fun b => b.elim0) _ _ i, Lits.ofBits_two_pow_20]
  show Ideal.div (Ideal.ofBits .f32 0x00000000#32 + ∑ j : S1024x1024.Idx, mag (w j)) _ = _
  rw [Lits.ofBits_zero]

theorem kwDen_apply (w : (⟨S1024x1024, .f32⟩ : BufTy).Contents (Elt Ideal)) (i : S_.Idx) : kwDen (F := Ideal) w i = den Lits.epsR (wMeanE w) := by
  unfold kwDen den
  rw [maximumf_apply, kwMean_apply, ← Lits.ofBits_eps]
  rfl

theorem kwScale_apply (w : (⟨S1024x1024, .f32⟩ : BufTy).Contents (Elt Ideal)) (i : S_.Idx) :
    kwScale (F := Ideal) w i = Ideal.div ((1 : ℝ) : EReal) (den Lits.epsR (wMeanE w)) := by
  unfold kwScale
  rw [hostDivf_apply', kwDen_apply, ← Lits.ofBits_one]
  rfl

theorem kwGrid_apply (w : (⟨S1024x1024, .f32⟩ : BufTy).Contents (Elt Ideal)) (j : S1024x1024.Idx) : kwGrid (F := Ideal) w j = wQ Lits.epsR w j := by
  unfold kwGrid wQ quantize
  rw [minimumf_apply, maximumf_apply, bcast_scalar', bcast_scalar', hostRoundeven_apply', mulf_apply, bcast_scalar', kwScale_apply,
    ← Lits.ofBits_one, ← Lits.ofBits_neg_one]
  rfl

/-! ## The staged arrays at an index -/

/-- The ternary matrix at (input feature k, output feature n) is the weight's grid value at (n, k). -/
theorem tmat_apply (c : Dev nD) (k n : Fin 1024) :
    V m c main_v10 (ix2 k n) = wQ Lits.epsR (m ((c : Thread nD τ).loc main_arg1)) (ix2 n k) := by
  rw [V_tmat, truncf_apply, ValueIdx.transpose_ix2_apply, kwGrid_apply]

/-- The 1 × 1 array holds the weight's clamped mean. -/
theorem wden_apply (c : Dev nD) :
    V m c main_v11 (ix2 (0 : Fin 1) (0 : Fin 1)) = den Lits.epsR (wMeanE (m ((c : Thread nD τ).loc main_arg1))) := by
  rw [V_wden, shapeCast_apply _ shapeCasts_S_S1x1 (ix2 (0 : Fin 1) (0 : Fin 1)) ix0 (by
    have h1 : (S_.rowMajor ix0).val < 1 := (S_.rowMajor ix0).isLt
    rw [Shape.rowMajor_val_two]
    show (S_.rowMajor ix0).val = 0 * 1 + 0
    omega), kwDen_apply]

/-- Row b·4096 + s of the staged activations is row (b, s) of the activations. -/
theorem rows_apply (c : Dev nD) (b : Fin 8) (s : Fin 4096) (k : Fin 1024) (hr : b.val * 4096 + s.val < 32768) :
    V m c main_v12 (ix2 (⟨b.val * 4096 + s.val, hr⟩ : Fin 32768) k) = m ((c : Thread nD τ).loc main_arg0) (ix3 b s k) := by
  rw [V_rows]
  exact shapeCast_apply _ shapeCasts_S8x4096x1024_S32768x1024 _ (ix3 b s k) (by
    rw [Shape.rowMajor_val_two, Shape.rowMajor_val_three]
    show (b.val * 4096 + s.val) * 1024 + k.val = (b.val * 4096 + s.val) * 1024 + k.val
    rfl)

/-- The staged bias at (0, n) is the bias at n. -/
theorem bias_row_apply (c : Dev nD) (n : Fin 1024) :
    V m c main_v13 (ix2 (0 : Fin 1) n) = m ((c : Thread nD τ).loc main_arg2) (ix1 n) := by
  rw [V_bias]
  exact ValueIdx.shapeCast_a_1a_apply _ shapeCasts_S1024_S1x1024 (0 : Fin 1) n

end Cert.KernelIdeal.KValue

end
-- ==== Proof.KernelRun.lean ====
/-
  The kernel's run, read. After the region the result array (rows × output features) is reshaped back to
  (batch, sequence, output features); element (b, s, n) of the result is element (b·4096 + s, n) of the array, which
  is the body's element of row b·4096 + s of the staged activations — row (b, s) of the activations — against column
  n of the ternary matrix — the weight's grid values of row n —, rescaled by the weight's clamped mean, plus the
  bias at n: the specification's kernel-side element. The frame run's post, read at the result buffer through the
  one host operation after the region, gives the run with that result named.
-/
import proofs.«164057_j25314537243014_2_alg».proof.Proof.Gen.KernelIdeal.Frame
import proofs.«164057_j25314537243014_2_alg».proof.Proof.KernelArray
import proofs.«164057_j25314537243014_2_alg».proof.Proof.KernelHost
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.BitLinear

variable (m : (ℓ : Loc nD τ sig) → Buf (Elt Ideal) ℓ) (ρ : Dev nD → PrngReg)

/-- Row (b, s) of the activations. -/
def rowAtK (x : (⟨S8x4096x1024, .f32⟩ : BufTy).Contents (Elt Ideal)) (b : Fin 8) (s : Fin 4096) : Fin 1024 → EReal := fun k => x (ix3 b s k)

/-- The kernel's result as one function of the three arguments: at (b, s, n) the kernel-side element of row (b, s),
    the weight's row n and the bias at n. -/
def kernOut (x : (⟨S8x4096x1024, .f32⟩ : BufTy).Contents (Elt Ideal)) (w : (⟨S1024x1024, .f32⟩ : BufTy).Contents (Elt Ideal)) (v : (⟨S1024, .f32⟩ : BufTy).Contents (Elt Ideal)) : (⟨S8x4096x1024, .f32⟩ : BufTy).Contents (Elt Ideal) :=
  fun i => kernelElt Lits.epsR (rowAtK x (i 0) (i 1)) w (fun k : Fin 1024 => ix2 (i 2) k) (v (ix1 (i 2)))

/-- The region's result array at (b·4096 + s, n) is the kernel's result at (b, s, n). -/
theorem arr_apply (c : Dev nD) (b : Fin 8) (s : Fin 4096) (n : Fin 1024) (hr : b.val * 4096 + s.val < 32768) :
    arrFn (V m c main_v12) (V m c main_v10) (V m c main_v11) (V m c main_v13) (ix2 (⟨b.val * 4096 + s.val, hr⟩ : Fin 32768) n)
      = kernOut (m ((c : Thread nD τ).loc main_arg0)) (m ((c : Thread nD τ).loc main_arg1)) (m ((c : Thread nD τ).loc main_arg2)) (ix3 b s n) := by
  show payElt Lits.epsR (fun k : Fin 1024 => V m c main_v12 (ix2 (⟨b.val * 4096 + s.val, hr⟩ : Fin 32768) k))
      (fun k : Fin 1024 => V m c main_v10 (ix2 k n)) (V m c main_v11 (ix2 (0 : Fin 1) (0 : Fin 1))) (V m c main_v13 (ix2 (0 : Fin 1) n))
    = kernelElt Lits.epsR (rowAtK (m ((c : Thread nD τ).loc main_arg0)) b s) (m ((c : Thread nD τ).loc main_arg1)) (fun k : Fin 1024 => ix2 n k)
      (m ((c : Thread nD τ).loc main_arg2) (ix1 n))
  rw [kernelElt_eq_payElt]
  have e1 : (fun k : Fin 1024 => V m c main_v12 (ix2 (⟨b.val * 4096 + s.val, hr⟩ : Fin 32768) k))
      = rowAtK (m ((c : Thread nD τ).loc main_arg0)) b s := funext fun k => rows_apply m c b s k hr
  have e2 : (fun k : Fin 1024 => V m c main_v10 (ix2 k n))
      = fun k : Fin 1024 => wQ Lits.epsR (m ((c : Thread nD τ).loc main_arg1)) (ix2 n k) := funext fun k => tmat_apply m c k n
  rw [e1, e2, wden_apply, bias_row_apply]

/-- The one host operation after the region reshapes the region's result array. -/
theorem tail_eq (c : Dev nD) :
    Pipeline.afterTail₀ cfgs (dats m) 0 (V0 m) [hostOps1] c main_v15
      = shapeCast S8x4096x1024 ((dats m 0 c).arrAt 4 cfg0.N) shapeCasts_S32768x1024_S8x4096x1024 := by
  unfold Pipeline.afterTail₀
  show StableHlo.after hostOps1 _ (Proc.devRef .tc main_v15) = _
  after_results
  rw [Pipeline.withArrays_arr spec0 launch0.win.arr_inj c _ _ 4]
  rfl

/-- The reshaped array is the kernel's result function. -/
theorem result_eq (c : Dev nD) :
    shapeCast S8x4096x1024 ((dats m 0 c).arrAt 4 cfg0.N) shapeCasts_S32768x1024_S8x4096x1024
      = kernOut (m ((c : Thread nD τ).loc main_arg0)) (m ((c : Thread nD τ).loc main_arg1)) (m ((c : Thread nD τ).loc main_arg2)) := by
  funext i
  obtain ⟨b, s, n, rfl⟩ : ∃ (b : Fin 8) (s : Fin 4096) (n : Fin 1024), i = ix3 b s n := ⟨i 0, i 1, i 2, eq_ix3 i⟩
  have hb : b.val < 8 := b.isLt
  have hs : s.val < 4096 := s.isLt
  have hr : b.val * 4096 + s.val < 32768 := by omega
  rw [shapeCast_apply _ shapeCasts_S32768x1024_S8x4096x1024 (ix3 b s n) (ix2 (⟨b.val * 4096 + s.val, hr⟩ : Fin 32768) n) (by
    rw [Shape.rowMajor_val_two, Shape.rowMajor_val_three]
    show (b.val * 4096 + s.val) * 1024 + n.val = (b.val * 4096 + s.val) * 1024 + n.val
    rfl), final, arr_apply]

/-- From any memory with zero counters every weakly fair execution of the kernel's program terminates with the result
    buffer at the kernel's result function of the three arguments' launch contents, and the arguments unchanged. -/
theorem run : θ_run defs (onTc (τ := τ) (main (F := Ideal))) ⟨m, fun _ => 0, ρ⟩ fun r => ∀ c : Dev nD,
      r.2.mem ((c.tc : Thread nD τ).loc main_v15)
        = kernOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.Finite.lean ====
/-
  What the precondition says. It is the conjunction of three tests, one per argument: every magnitude |·| of the
  array is strictly below +∞. A conjunction of bits that is 1 has each bit 1; a reduction by "and" over all axes
  that is 1 met a 1 at every index; a strict comparison that is 1 holds; and an extended real whose magnitude
  max(x, −x) is below +∞ is neither infinity, so it is a real number. Only the activations and the weight are needed.
-/
import proofs.«164057_j25314537243014_2_alg».proof.Pre_finite_inputs
import proofs.«164057_j25314537243014_2_alg».proof.Proof.Gen.Pre_finite_inputs
import proofs.«164057_j25314537243014_2_alg».proof.Proof.Lits
import Idealize.ShloMosaic.Lib.ReduceAll
import Idealize.ShloMosaic.Lib.Pipeline.Value
import Idealize.ShloMosaic.Lib.ValueIdx
import Idealize.ShloMosaic.PureOps.Ideal.Laws

noncomputable section

namespace Cert.BitLinear.Finite

open Idealize.ShloMosaic Idealize.ShloMosaic.ValueIdx Cert.Pre_finite_inputs Cert.Pre_finite_inputs.Gen

instance : Subsingleton S_.Idx := ⟨fun a b => funext fun d => d.elim0⟩

/-- A strict comparison that answers 1 holds. -/
theorem lt_of_cmp_olt (a b : EReal) (h : Ideal.cmp .olt a b = 1#1) : a < b := by
  unfold Ideal.cmp at h
  by_contra hlt
  simp [hlt] at h

/-- An extended real whose magnitude is below +∞ is a real. -/
theorem real_of_mag_lt_top (x : EReal) (h : max x (-x) < ⊤) : ∃ r : ℝ, x = (r : EReal) := by
  induction x using EReal.rec with
  | bot => simp at h
  | coe r => exact ⟨r, rfl⟩
  | top => simp at h

/-- One test: if all magnitudes of an array compare below the +∞ constant, every entry is a real. -/
theorem real_of_test {s : Shape} (hb : S_.BroadcastsInDim s (![] : Fin 0 → Fin s.rank)) (x : FVec Ideal s .f32) (i : s.Idx)
    (e : cmpf .olt (Host.absf x) (broadcastInDim s ![] hb (constant (F := Ideal) S_ .f32 0x7F800000#32)) i = 1#1) :
    ∃ r : ℝ, x i = (r : EReal) := by
  have hbc : broadcastInDim s ![] hb (constant (F := Ideal) S_ .f32 0x7F800000#32) i = Ideal.ofBits .f32 0x7F800000#32 :=
    broadcastInDim_apply _ hb _ i ix0 (fun a => a.elim0)
  have e' : Ideal.cmp .olt (max (x i) (-(x i))) (broadcastInDim s ![] hb (constant (F := Ideal) S_ .f32 0x7F800000#32) i) = 1#1 := e
  rw [hbc, Lits.ofBits_pos_inf] at e'
  exact real_of_mag_lt_top _ (lt_of_cmp_olt _ _ e')

/-- The precondition gives: every activation and every weight entry is a real number. -/
theorem finite_of_pre (x : FVec Ideal S8x4096x1024 .f32) (w : FVec Ideal S1024x1024 .f32) (b : FVec Ideal S1024 .f32)
    (h : Cert.Pre_finite_inputs.fn (F := Ideal) x w b = fun _ => 1#1) :
    (∀ i, ∃ r : ℝ, x i = (r : EReal)) ∧ (∀ j, ∃ r : ℝ, w j = (r : EReal)) := by
  have h0 := congrFun h ix0
  dsimp only [Cert.Pre_finite_inputs.fn] at h0
  obtain ⟨h12, _⟩ := IntOp.andi_eq_one.1 h0
  obtain ⟨h1, h2⟩ := IntOp.andi_eq_one.1 h12
  exact ⟨fun i => real_of_test bcast_S_S8x4096x1024 x i (Host.reduce_andi_all _ _ _ _ ix0 h1 i),
    fun j => real_of_test bcast_S_S1024x1024 w j (Host.reduce_andi_all _ _ _ _ ix0 h2 j)⟩

end Cert.BitLinear.Finite

end
-- ==== Proof.Bridge.lean ====
/-
  The two idealized programs compute one function. The kernel's run ends with its result buffer at, element by
  element, the kernel-side element of the specification; the reference's run ends with its result buffer at the
  reference-side element of the same row of activations, the same weight and the same bias. Under the precondition
  every activation and every weight entry is a real number, and on real inputs the two elements are equal: the
  straight-through forms collapse to the rescaled grid values, and the common factor (row's clamped magnitude ·
  weight's clamped mean / 127) moves out of the contraction. So from memories agreeing on the arguments both programs
  run and end with equal results.
-/
import proofs.«164057_j25314537243014_2_alg».proof.Defs
import proofs.«164057_j25314537243014_2_alg».proof.Proof.Gen.Pre_finite_inputs
import proofs.«164057_j25314537243014_2_alg».proof.Proof.RefElt
import proofs.«164057_j25314537243014_2_alg».proof.Proof.KernelRun
import proofs.«164057_j25314537243014_2_alg».proof.Proof.Finite

set_option maxRecDepth 16384

noncomputable section

namespace Cert.BitLinear.Bridge

open Idealize.ShloMosaic Idealize.ShloMosaic.TcCoe Idealize.SL.Sem Idealize.ShloMosaic.ValueIdx Cert.BitLinear

/-- On real activations and a real weight the reference's result is the kernel's result, element by element. -/
theorem results_eq (x : (⟨Cert.KernelIdeal.S8x4096x1024, .f32⟩ : BufTy).Contents (Elt Ideal))
    (w : (⟨Cert.KernelIdeal.S1024x1024, .f32⟩ : BufTy).Contents (Elt Ideal)) (v : (⟨Cert.KernelIdeal.S1024, .f32⟩ : BufTy).Contents (Elt Ideal))
    (hx : ∀ i, ∃ r : ℝ, x i = (r : EReal)) (hw : ∀ j, ∃ r : ℝ, w j = (r : EReal)) :
    Cert.ReferenceIdeal.RefValue.refOut (F := Ideal) x w v = Cert.KernelIdeal.KValue.kernOut x w v := by
  funext i
  obtain ⟨b, s, n, rfl⟩ : ∃ (b : Fin 8) (s : Fin 4096) (n : Fin 1024), i = ix3 b s n := ⟨i 0, i 1, i 2, eq_ix3 i⟩
  rw [Cert.ReferenceIdeal.RefValue.refOut_apply]
  exact (kernelElt_eq_refElt Lits.epsR_pos (Cert.ReferenceIdeal.RefValue.rowAt x b s) w (fun k : Fin 1024 => ix2 n k) (v (ix1 n))
    (fun k => hx (ix3 b s k)) hw).symm

/-- The algebraic conjunct: from memories agreeing on the arguments, under the precondition, the idealized kernel and
    the idealized reference both run and end with equal results and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.kernOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2]
  obtain ⟨hx, hw⟩ := Finite.finite_of_pre _ _ _ (hpre c)
  exact results_eq _ _ _ hx hw

end Cert.BitLinear.Bridge

end
-- ==== Proof.lean ====
/-
  The certificate of a BitLinear forward pass: activations fake-quantised per row to the int8 grid, the weight
  fake-quantised to the ternary grid by its mean magnitude, a matrix product, a bias. The kernel feeds the matrix unit
  the grid values themselves and rescales each output element once; the reference dequantises both operands first.
  Over the extended reals, on finite inputs, the two are the same function (Proof/Spec.lean has the mathematics;
  Proof/Bridge.lean joins the two runs).

  The five conjuncts: the word-level kernel's and the idealized kernel's frames are the generated ones; the
  reference's frame is its run (Proof/RefRun.lean) with the result dropped; the idealization named one constant, at
  its two sites, 1/127, and each site's statement is that the certificate's table gives the name that value; the
  algebraic conjunct is Proof/Bridge.lean's.
-/
import proofs.«164057_j25314537243014_2_alg».proof.Defs
import proofs.«164057_j25314537243014_2_alg».proof.Proof.Gen.Kernel
import proofs.«164057_j25314537243014_2_alg».proof.Proof.Gen.Kernel.Skeleton
import proofs.«164057_j25314537243014_2_alg».proof.Proof.Gen.Kernel.Launch
import proofs.«164057_j25314537243014_2_alg».proof.Proof.Gen.Kernel.Points
import proofs.«164057_j25314537243014_2_alg».proof.Proof.Gen.Kernel.Frame
import proofs.«164057_j25314537243014_2_alg».proof.Proof.Gen.KernelIdeal
import proofs.«164057_j25314537243014_2_alg».proof.Proof.Gen.KernelIdeal.Skeleton
import proofs.«164057_j25314537243014_2_alg».proof.Proof.Gen.KernelIdeal.Launch
import proofs.«164057_j25314537243014_2_alg».proof.Proof.Gen.KernelIdeal.Points
import proofs.«164057_j25314537243014_2_alg».proof.Proof.Gen.KernelIdeal.Frame
import proofs.«164057_j25314537243014_2_alg».proof.Proof.Gen.ReferenceIdeal
import proofs.«164057_j25314537243014_2_alg».proof.Proof.Gen.Pre_finite_inputs
import proofs.«164057_j25314537243014_2_alg».proof.Proof.RefRun
import proofs.«164057_j25314537243014_2_alg».proof.Proof.Bridge
import Idealize.ShloMosaic.PureOps.IdealRules
import Idealize.ShloMosaic.Adequacy
import Idealize.ShloMosaic.Init

noncomputable section

namespace Cert.Proof

open Idealize.ShloMosaic Idealize.SL.Sem Cert.Kernel

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run (F := Ideal) m ρ)

/-- The ledger's two entries are one constant at two sites: the certificate's table gives "inv_127" the value 1/127. -/
theorem preserves : Cert.preserves_Kernel_KernelIdeal :=
  ⟨IdealRules.named_const.statement Cert.KernelIdeal.κ "inv_127" .f32 0x3C010204#32 ((1 / 127 : ℝ) : EReal) rfl,
    IdealRules.named_const.statement Cert.KernelIdeal.κ "inv_127" .f32 0x3C010204#32 ((1 / 127 : ℝ) : EReal) rfl⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, Cert.BitLinear.Bridge.algebraic⟩

end Cert.Proof

end
